-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x800000 : Shape := ⟨2, ![2, 800000]⟩
abbrev S800000x128 : Shape := ⟨2, ![800000, 128]⟩
abbrev S256x512 : Shape := ⟨2, ![256, 512]⟩
abbrev S256x128 : Shape := ⟨2, ![256, 128]⟩
abbrev S256 : Shape := ⟨1, ![256]⟩
abbrev S256x256 : Shape := ⟨2, ![256, 256]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x512 : S_.BroadcastsInDim S256x512 (![] : Fin 0 → Fin S256x512.rank)
  reducesTo_S256x512_S_d0_1 : S256x512.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256x512 .f32) (main_arg9 : FVec F S256 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x512 .f32) (main_arg9 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x512 .f32) (main_arg1 : IVec S2x800000 32) (main_arg2 : FVec F S800000x128 .f32) (main_arg3 : FVec F S256x512 .f32) (main_arg4 : FVec F S256x128 .f32) (main_arg5 : FVec F S256 .f32) (main_arg6 : FVec F S256x256 .f32) (main_arg7 : FVec F S256 .f32) (main_arg8 : FVec F S256x512 .f32) (main_arg9 : FVec F S256 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S100000x512 : Shape := ⟨2, ![100000, 512]⟩
abbrev S2x800000 : Shape := ⟨2, ![2, 800000]⟩
abbrev S800000x128 : Shape := ⟨2, ![800000, 128]⟩
abbrev S256x512 : Shape := ⟨2, ![256, 512]⟩
abbrev S256x128 : Shape := ⟨2, ![256, 128]⟩
abbrev S256 : Shape := ⟨1, ![256]⟩
abbrev S256x256 : Shape := ⟨2, ![256, 256]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S100000x128 : Shape := ⟨2, ![100000, 128]⟩
abbrev S900000x128 : Shape := ⟨2, ![900000, 128]⟩
abbrev S128x256 : Shape := ⟨2, ![128, 256]⟩
abbrev S1x256 : Shape := ⟨2, ![1, 256]⟩
abbrev S901120x128 : Shape := ⟨2, ![901120, 128]⟩
abbrev S901120x256 : Shape := ⟨2, ![901120, 256]⟩
abbrev S4096x128 : Shape := ⟨2, ![4096, 128]⟩
abbrev S4096x256 : Shape := ⟨2, ![4096, 256]⟩
abbrev S900000x256 : Shape := ⟨2, ![900000, 256]⟩
abbrev S512x512 : Shape := ⟨2, ![512, 512]⟩
abbrev S100000x256 : Shape := ⟨2, ![100000, 256]⟩
abbrev S2000x512 : Shape := ⟨2, ![2000, 512]⟩
abbrev S2000x256 : Shape := ⟨2, ![2000, 256]⟩
abbrev S900000x1 : Shape := ⟨2, ![900000, 1]⟩
abbrev S100000x1 : Shape := ⟨2, ![100000, 1]⟩

abbrev nBuf : Space → Nat
  | .hbm => 60
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x800000, .i32⟩
  | .hbm, ⟨2, _⟩ => ⟨S800000x128, .f32⟩
  | .hbm, ⟨3, _⟩ => ⟨S256x512, .f32⟩
  | .hbm, ⟨4, _⟩ => ⟨S256x128, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S100000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S1x800000, .i32⟩
  | .hbm, ⟨15, _⟩ => ⟨S800000, .i32⟩
  | .hbm, ⟨16, _⟩ => ⟨S900000, .i32⟩
  | .hbm, ⟨17, _⟩ => ⟨S_, .f32⟩
  | .hbm, ⟨18, _⟩ => ⟨S100000x128, .f32⟩
  | .hbm, ⟨19, _⟩ => ⟨S900000x128, .f32⟩
  | .hbm, ⟨20, _⟩ => ⟨S128x256, .f32⟩
  | .hbm, ⟨21, _⟩ => ⟨S256x256, .f32⟩
  | .hbm, ⟨22, _⟩ => ⟨S1x256, .f32⟩
  | .hbm, ⟨23, _⟩ => ⟨S1x256, .f32⟩
  | .hbm, ⟨24, _⟩ => ⟨S_, .i32⟩
  | .hbm, ⟨25, _⟩ => ⟨S_, .f32⟩
  | .hbm, ⟨26, _⟩ => ⟨S901120x128, .f32⟩
  | .hbm, ⟨27, _⟩ => ⟨S901120x256, .f32⟩
  | .hbm, ⟨28, _⟩ => ⟨S900000x256, .f32⟩
  | .hbm, ⟨29, _⟩ => ⟨S512x512, .f32⟩
  | .hbm, ⟨30, _⟩ => ⟨S512x512, .f32⟩
  | .hbm, ⟨31, _⟩ => ⟨S1x256, .f32⟩
  | .hbm, ⟨32, _⟩ => ⟨S100000x256, .f32⟩
  | .hbm, ⟨33, _⟩ => ⟨S100000x256, .f32⟩
  | .hbm, ⟨34, _⟩ => ⟨S_, .i32⟩
  | .hbm, ⟨35, _⟩ => ⟨S900000, .i32⟩
  | .hbm, ⟨36, _⟩ => ⟨S900000, .i1⟩
  | .hbm, ⟨37, _⟩ => ⟨S_, .i32⟩
  | .hbm, ⟨38, _⟩ => ⟨S900000, .i32⟩
  | .hbm, ⟨39, _⟩ => ⟨S900000, .i32⟩
  | .hbm, ⟨40, _⟩ => ⟨S900000, .i32⟩
  | .hbm, ⟨41, _⟩ => ⟨S900000x1, .i32⟩
  | .hbm, ⟨42, _⟩ => ⟨S900000x256, .f32⟩
  | .hbm, ⟨43, _⟩ => ⟨S900000x256, .f32⟩
  | .hbm, ⟨44, _⟩ => ⟨S_, .f32⟩
  | .hbm, ⟨45, _⟩ => ⟨S100000x256, .f32⟩
  | .hbm, ⟨46, _⟩ => ⟨S900000x1, .i32⟩
  | .hbm, ⟨47, _⟩ => ⟨S100000x256, .f32⟩
  | .hbm, ⟨48, _⟩ => ⟨S_, .f32⟩
  | .hbm, ⟨49, _⟩ => ⟨S900000x1, .f32⟩
  | .hbm, ⟨50, _⟩ => ⟨S_, .f32⟩
  | .hbm, ⟨51, _⟩ => ⟨S100000x1, .f32⟩
  | .hbm, ⟨52, _⟩ => ⟨S900000x1, .i32⟩
  | .hbm, ⟨53, _⟩ => ⟨S100000x1, .f32⟩
  | .hbm, ⟨54, _⟩ => ⟨S_, .f32⟩
  | .hbm, ⟨55, _⟩ => ⟨S100000x1, .f32⟩
  | .hbm, ⟨56, _⟩ => ⟨S100000x1, .f32⟩
  | .hbm, ⟨57, _⟩ => ⟨S100000x256, .f32⟩
  | .hbm, ⟨58, _⟩ => ⟨S100000x256, .f32⟩
  | .hbm, ⟨59, _⟩ => ⟨S100000x256, .f32⟩
  | .local _ .vmem, ⟨0, _⟩ => ⟨S4096x128, .f32⟩
  | .local _ .vmem, ⟨1, _⟩ => ⟨S4096x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | .local _ .vmem, ⟨8, _⟩ => ⟨S2000x512, .f32⟩
  | .local _ .vmem, ⟨9, _⟩ => ⟨S2000x512, .f32⟩
  | .local _ .vmem, ⟨10, _⟩ => ⟨S512x512, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_c_0 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![220], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S100000x128 : S_.BroadcastsInDim S100000x128 (![] : Fin 0 → Fin S100000x128.rank)
  concatenates_S800000x128_S100000x128_S900000x128_d0 : Shape.Concatenates [S800000x128, S100000x128] S900000x128 0
  transposes_S256x128_S128x256_1_0 : S256x128.Transposes [1, 0] S128x256
  transposes_S256x256_S256x256_1_0 : S256x256.Transposes [1, 0] S256x256
  shapeCasts_S256_S1x256 : S256.ShapeCasts S1x256
  pads_S900000x128_S901120x128_011200_000 : S900000x128.Pads (![0, 0] : Fin 2 → Nat) ![1120, 0] ![0, 0] S901120x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  slices_S901120x256_S900000x256_0_0 : S901120x256.Slices ![0, 0] S900000x256
  concatenates_S256x512_S256x512_S512x512_d0 : Shape.Concatenates [S256x512, S256x512] S512x512 0
  transposes_S512x512_S512x512_1_0 : S512x512.Transposes [1, 0] S512x512
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S2000x512_o0_0_S2000x256 : S2000x512.Slices ![0, 0] S2000x256
  inb_S2000x256_S2000x256_0_0 : ∀ a, (![0, 0] : Fin 2 → Nat) a + S2000x256.size a ≤ S2000x256.size a
  h_S2000x256 : 0 < S2000x256.numel
  slices_S2000x512_o0_256_S2000x256 : S2000x512.Slices ![0, 256] S2000x256
  broadcasts_S1x256_S2000x256 : S1x256.Broadcasts S2000x256
  bcast_S_S900000 : S_.BroadcastsInDim S900000 (![] : Fin 0 → Fin S900000.rank)
  bcast_S900000_S900000x1_0 : S900000.BroadcastsInDim S900000x1 (![0] : Fin 1 → Fin S900000x1.rank)
  bcast_S_S100000x256 : S_.BroadcastsInDim S100000x256 (![] : Fin 0 → Fin S100000x256.rank)
  bcast_S_S900000x1 : S_.BroadcastsInDim S900000x1 (![] : Fin 0 → Fin S900000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S2000x512_S512x512_S2000x512_1_0_0_1_n_n_wf : DotDims.WF S2000x512 S512x512 S2000x512 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  scatter_S100000x1_S900000x1_S900000x1_1_0_0_1_wf : ScatterDims.WF S100000x1 S900000x1 S900000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S901120x128.size a
  hwx0_0 : ∀ i : grid0.Coords, EltTy.bits .f32 = 32 ∨ (Rect.block (s := S901120x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S901120x256.size a
  hwx0_5 : ∀ i : grid0.Coords, EltTy.bits .f32 = 32 ∨ (Rect.block (s := S901120x256) S4096x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S100000x256.size a
  hwx1_3 : ∀ i : grid1.Coords, EltTy.bits .f32 = 32 ∨ (Rect.block (s := S100000x256) S2000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .f32 = 32 ∨ (Rect.block (s := S100000x256) S2000x256.size (cc1_transform_4 i) (hinb1_4 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def scatter_S100000x1_S900000x1_S900000x1_1_0_0_1 : ScatterDims S100000x1 S900000x1 S900000x1 where
  updateWindowDims := [1]
  insertedWindowDims := [0]
  scatterDimsToOperandDims := [0]
  indexVectorDim := 1
  wf := scatter_S100000x1_S900000x1_S900000x1_1_0_0_1_wf

abbrev win0_0 : Pipeline.Window sig grid0 :=
  Pipeline.Window.ofSpec (Memref.whole main_v13) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19_0) S2000x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_1) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x800000 : Shape := ⟨2, ![2, 800000]⟩
abbrev S800000x128 : Shape := ⟨2, ![800000, 128]⟩
abbrev S256x512 : Shape := ⟨2, ![256, 512]⟩
abbrev S256x128 : Shape := ⟨2, ![256, 128]⟩
abbrev S256 : Shape := ⟨1, ![256]⟩
abbrev S256x256 : Shape := ⟨2, ![256, 256]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S100000x128 : Shape := ⟨2, ![100000, 128]⟩
abbrev S900000x128 : Shape := ⟨2, ![900000, 128]⟩
abbrev S512x256 : Shape := ⟨2, ![512, 256]⟩
abbrev S100000x256 : Shape := ⟨2, ![100000, 256]⟩
abbrev S128x256 : Shape := ⟨2, ![128, 256]⟩
abbrev S900000x256 : Shape := ⟨2, ![900000, 256]⟩
abbrev S1x256 : Shape := ⟨2, ![1, 256]⟩
abbrev S900000x1 : Shape := ⟨2, ![900000, 1]⟩
abbrev S100000x1 : Shape := ⟨2, ![100000, 1]⟩

abbrev nBuf : Space → Nat
  | .hbm => 74
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x800000, .i32⟩
  | .hbm, ⟨2, _⟩ => ⟨S800000x128, .f32⟩
  | .hbm, ⟨3, _⟩ => ⟨S256x512, .f32⟩
  | .hbm, ⟨4, _⟩ => ⟨S256x128, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S256, .f32⟩
  | .hbm, ⟨10, _⟩ => ⟨S100000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S1x800000, .i32⟩
  | .hbm, ⟨15, _⟩ => ⟨S800000, .i32⟩
  | .hbm, ⟨16, _⟩ => ⟨S900000, .i32⟩
  | .hbm, ⟨17, _⟩ => ⟨S_, .f32⟩
  | .hbm, ⟨18, _⟩ => ⟨S100000x128, .f32⟩
  | .hbm, ⟨19, _⟩ => ⟨S900000x128, .f32⟩
  | .hbm, ⟨20, _⟩ => ⟨S512x256, .f32⟩
  | .hbm, ⟨21, _⟩ => ⟨S100000x256, .f32⟩
  | .hbm, ⟨22, _⟩ => ⟨S128x256, .f32⟩
  | .hbm, ⟨23, _⟩ => ⟨S900000x256, .f32⟩
  | .hbm, ⟨24, _⟩ => ⟨S1x256, .f32⟩
  | .hbm, ⟨25, _⟩ => ⟨S900000x256, .f32⟩
  | .hbm, ⟨26, _⟩ => ⟨S900000x256, .f32⟩
  | .hbm, ⟨27, _⟩ => ⟨S_, .f32⟩
  | .hbm, ⟨28, _⟩ => ⟨S900000x256, .f32⟩
  | .hbm, ⟨29, _⟩ => ⟨S900000x256, .f32⟩
  | .hbm, ⟨30, _⟩ => ⟨S256x256, .f32⟩
  | .hbm, ⟨31, _⟩ => ⟨S900000x256, .f32⟩
  | .hbm, ⟨32, _⟩ => ⟨S1x256, .f32⟩
  | .hbm, ⟨33, _⟩ => ⟨S900000x256, .f32⟩
  | .hbm, ⟨34, _⟩ => ⟨S900000x256, .f32⟩
  | .hbm, ⟨35, _⟩ => ⟨S900000x256, .f32⟩
  | .hbm, ⟨36, _⟩ => ⟨S900000x256, .f32⟩
  | .hbm, ⟨37, _⟩ => ⟨S_, .f32⟩
  | .hbm, ⟨38, _⟩ => ⟨S900000x256, .f32⟩
  | .hbm, ⟨39, _⟩ => ⟨S900000x256, .f32⟩
  | .hbm, ⟨40, _⟩ => ⟨S_, .f32⟩
  | .hbm, ⟨41, _⟩ => ⟨S900000x256, .f32⟩
  | .hbm, ⟨42, _⟩ => ⟨S900000x256, .f32⟩
  | .hbm, ⟨43, _⟩ => ⟨S_, .i32⟩
  | .hbm, ⟨44, _⟩ => ⟨S900000, .i32⟩
  | .hbm, ⟨45, _⟩ => ⟨S900000, .i1⟩
  | .hbm, ⟨46, _⟩ => ⟨S_, .i32⟩
  | .hbm, ⟨47, _⟩ => ⟨S900000, .i32⟩
  | .hbm, ⟨48, _⟩ => ⟨S900000, .i32⟩
  | .hbm, ⟨49, _⟩ => ⟨S900000, .i32⟩
  | .hbm, ⟨50, _⟩ => ⟨S900000x1, .i32⟩
  | .hbm, ⟨51, _⟩ => ⟨S900000x256, .f32⟩
  | .hbm, ⟨52, _⟩ => ⟨S900000x256, .f32⟩
  | .hbm, ⟨53, _⟩ => ⟨S_, .f32⟩
  | .hbm, ⟨54, _⟩ => ⟨S100000x256, .f32⟩
  | .hbm, ⟨55, _⟩ => ⟨S900000x1, .i32⟩
  | .hbm, ⟨56, _⟩ => ⟨S100000x256, .f32⟩
  | .hbm, ⟨57, _⟩ => ⟨S_, .f32⟩
  | .hbm, ⟨58, _⟩ => ⟨S900000x1, .f32⟩
  | .hbm, ⟨59, _⟩ => ⟨S_, .f32⟩
  | .hbm, ⟨60, _⟩ => ⟨S100000x1, .f32⟩
  | .hbm, ⟨61, _⟩ => ⟨S900000x1, .i32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .f32⟩
  | .hbm, ⟨66, _⟩ => ⟨S100000x256, .f32⟩
  | .hbm, ⟨67, _⟩ => ⟨S100000x256, .f32⟩
  | .hbm, ⟨68, _⟩ => ⟨S512x256, .f32⟩
  | .hbm, ⟨69, _⟩ => ⟨S100000x256, .f32⟩
  | .hbm, ⟨70, _⟩ => ⟨S100000x256, .f32⟩
  | .hbm, ⟨71, _⟩ => ⟨S1x256, .f32⟩
  | .hbm, ⟨72, _⟩ => ⟨S100000x256, .f32⟩
  | .hbm, ⟨73, _⟩ => ⟨S100000x256, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_c_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S100000x128 : S_.BroadcastsInDim S100000x128 (![] : Fin 0 → Fin S100000x128.rank)
  concatenates_S800000x128_S100000x128_S900000x128_d0 : Shape.Concatenates [S800000x128, S100000x128] S900000x128 0
  transposes_S256x512_S512x256_1_0 : S256x512.Transposes [1, 0] S512x256
  transposes_S256x128_S128x256_1_0 : S256x128.Transposes [1, 0] S128x256
  bcast_S256_S1x256_1 : S256.BroadcastsInDim S1x256 (![1] : Fin 1 → Fin S1x256.rank)
  bcast_S1x256_S900000x256_0_1 : S1x256.BroadcastsInDim S900000x256 (![0, 1] : Fin 2 → Fin S900000x256.rank)
  bcast_S_S900000x256 : S_.BroadcastsInDim S900000x256 (![] : Fin 0 → Fin S900000x256.rank)
  transposes_S256x256_S256x256_1_0 : S256x256.Transposes [1, 0] S256x256
  bcast_S_S900000 : S_.BroadcastsInDim S900000 (![] : Fin 0 → Fin S900000.rank)
  bcast_S900000_S900000x1_0 : S900000.BroadcastsInDim S900000x1 (![0] : Fin 1 → Fin S900000x1.rank)
  bcast_S_S100000x256 : S_.BroadcastsInDim S100000x256 (![] : Fin 0 → Fin S100000x256.rank)
  bcast_S_S900000x1 : S_.BroadcastsInDim S900000x1 (![] : Fin 0 → Fin S900000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S1x256_S100000x256_0_1 : S1x256.BroadcastsInDim S100000x256 (![0, 1] : Fin 2 → Fin S100000x256.rank)
  dot_S100000x512_S512x256_S100000x256_1_0_0_1_n_n_wf : DotDims.WF S100000x512 S512x256 S100000x256 [1] [0] [0] [1] [] []
  dot_S900000x128_S128x256_S900000x256_1_0_0_1_n_n_wf : DotDims.WF S900000x128 S128x256 S900000x256 [1] [0] [0] [1] [] []
  dot_S900000x256_S256x256_S900000x256_1_0_0_1_n_n_wf : DotDims.WF S900000x256 S256x256 S900000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  scatter_S100000x1_S900000x1_S900000x1_1_0_0_1_wf : ScatterDims.WF S100000x1 S900000x1 S900000x1 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S900000x128_S128x256_S900000x256_1_0_0_1_n_n : DotDims S900000x128 S128x256 S900000x256 where
  lhsContracting := [1]
  rhsContracting := [0]
  lhsNonContracting := [0]
  rhsNonContracting := [1]
  lhsBatch := []
  rhsBatch := []
  wf := dot_S900000x128_S128x256_S900000x256_1_0_0_1_n_n_wf
def dot_S900000x256_S256x256_S900000x256_1_0_0_1_n_n : DotDims S900000x256 S256x256 S900000x256 where
  lhsContracting := [1]
  rhsContracting := [0]
  lhsNonContracting := [0]
  rhsNonContracting := [1]
  lhsBatch := []
  rhsBatch := []
  wf := dot_S900000x256_S256x256_S900000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def scatter_S100000x1_S900000x1_S900000x1_1_0_0_1 : ScatterDims S100000x1 S900000x1 S900000x1 where
  updateWindowDims := [1]
  insertedWindowDims := [0]
  scatterDimsToOperandDims := [0]
  indexVectorDim := 1
  wf := scatter_S100000x1_S900000x1_S900000x1_1_0_0_1_wf

class Facts : Prop extends Facts₀ where

variable [Facts]
-- ==== Proof.KRun.lean ====
/-
  The tiled program's run with its result named.

  From any launch memory every weakly fair execution ends, nothing faulting, with the result array holding the last
  boundary's contents at the result's buffer — the fold of the host stretches and the two regions from the launch
  memory — and the ten argument arrays as launched.
-/
import proofs.«113082_j64707977282150_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result at the last boundary's contents, the arguments unchanged. -/
theorem run : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KRun

end
-- ==== Proof.Tail.lean ====
/-
  The part both programs share, carried as one function.

  Given the message table, the gates and the two endpoint lists of the edges (self loops appended), both programs do the
  same things in the same order: bring negative row numbers into range, gather each edge's message row, multiply by the
  gate, sum the products into their target nodes, count the edges into each node, and divide the sums by the counts
  (at least one). That chain is named here once, `aggregate`, and never opened: the certificate only needs that the two
  programs feed it equal arrays.
-/
import proofs.«113082_j64707977282150_1_alg».proof.Proof.Gen.ReferenceIdeal.Read

noncomputable section

namespace Cert.ReferenceIdeal.Tail

open Cert.ReferenceIdeal Cert.ReferenceIdeal.Gen Idealize.ShloMosaic

variable {F : FTy → Type} [FloatOps F]

/-- The normalised neighbourhood sum: `(∑_{e → n} table[row e] · gate e) / max(#{e → n}, 1)`, as the host operations
    compute it. -/
def aggregate (table : (⟨S100000x256, .f32⟩ : BufTy).Contents (Elt F)) (gate : (⟨S900000x256, .f32⟩ : BufTy).Contents (Elt F))
    (row col : (⟨S900000, .i32⟩ : BufTy).Contents (Elt F)) : (⟨S100000x256, .f32⟩ : BufTy).Contents (Elt F) :=
  Host.divf
    (Host.scatterAdd scatter_S100000x256_S900000x1_S900000x256_1_0_0_1
      (broadcastInDim S100000x256 ![] bcast_S_S100000x256 (constant S_ .f32 0x00000000#32))
      (broadcastInDim S900000x1 ![0] bcast_S900000_S900000x1_0 col)
      (mulf
        (Host.gather gather_S100000x256_S900000x1_S900000x256_1_0_n_n_0_1_1256 table
          (broadcastInDim S900000x1 ![0] bcast_S900000_S900000x1_0
            (select (cmpi .slt row (broadcastInDim S900000 ![] bcast_S_S900000 (constantI S_ 32 0#32)))
              (addi row (broadcastInDim S900000 ![] bcast_S_S900000 (constantI S_ 32 100000#32))) row)))
        gate))
    (broadcastInDim S100000x256 ![0, 1] bcast_S100000x1_S100000x256_0_1
      (maximumf
        (Host.scatterAdd scatter_S100000x1_S900000x1_S900000x1_1_0_0_1
          (broadcastInDim S100000x1 ![] bcast_S_S100000x1 (constant S_ .f32 0x00000000#32))
          (broadcastInDim S900000x1 ![0] bcast_S900000_S900000x1_0 col)
          (broadcastInDim S900000x1 ![] bcast_S_S900000x1 (constant S_ .f32 0x3F800000#32)))
        (broadcastInDim S100000x1 ![] bcast_S_S100000x1 (constant S_ .f32 0x3F800000#32))))

/-- The reference's normalised sum is `aggregate` of its message table, its gates and its endpoint lists. -/
theorem ref_aggregate (x0 : (⟨S100000x512, .f32⟩ : BufTy).Contents (Elt F)) (x1 : (⟨S2x800000, .i32⟩ : BufTy).Contents (Elt F))
    (x2 : (⟨S800000x128, .f32⟩ : BufTy).Contents (Elt F)) (x3 : (⟨S256x512, .f32⟩ : BufTy).Contents (Elt F))
    (x4 : (⟨S256x128, .f32⟩ : BufTy).Contents (Elt F)) (x5 : (⟨S256, .f32⟩ : BufTy).Contents (Elt F))
    (x6 : (⟨S256x256, .f32⟩ : BufTy).Contents (Elt F)) (x7 : (⟨S256, .f32⟩ : BufTy).Contents (Elt F)) :
    Read.val_main_v46 (F := F) x0 x1 x2 x3 x4 x5 x6 x7
      = aggregate (Read.val_main_v10 (F := F) x0 x3) (Read.val_main_v27 (F := F) x2 x4 x5 x6 x7)
          (Read.val_main_v3 (F := F) x1) (Read.val_main_v6 (F := F) x1) := by
  unfold Read.val_main_v46 Read.val_main_v38 Read.val_main_v45 Read.val_main_v44 Read.val_main_v42 Read.val_main_v43
    Read.val_main_v41 Read.val_main_v40 Read.val_main_v39 Read.val_main_v37 Read.val_main_v36 Read.val_main_v35
    Read.val_main_v34 Read.val_main_v33 Read.val_main_v32 Read.val_main_v31 Read.val_main_v30 Read.val_main_v29
    Read.val_main_v28 Read.val_main_c Read.val_main_c_2 Read.val_main_cst_3 Read.val_main_cst_4 Read.val_main_cst_5
    Read.val_main_cst_6 aggregate
  rfl

end Cert.ReferenceIdeal.Tail

end
-- ==== Proof.HostK.lean ====
/-
  The tiled program's host stretches, read.

  Between the launch and the first region, between the two regions and after the second, the program runs short
  stretches of host operations. Each buffer the proof needs is read here through those stretches: the result as the
  shared normalised sum plus the root array, the endpoint lists and every operand of a region as an operation or two of
  the launch arrays.
-/
import proofs.«113082_j64707977282150_1_alg».proof.Proof.Gen.KernelIdeal.Frame
import proofs.«113082_j64707977282150_1_alg».proof.Proof.Tail

set_option maxRecDepth 16384

noncomputable section

namespace Cert.KernelIdeal.HostK

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

set_option maxHeartbeats 8000000 in
/-- The result: the normalised neighbourhood sum of the message table, the gates and the endpoint lists as the second
    region leaves them, plus the root array. -/
theorem result_eq (c : Dev nD) :
    @Eq ((⟨S100000x256, .f32⟩ : BufTy).Contents (Elt Ideal)) (W6 m ρ c (Proc.devRef .tc main_v39))
      (addf (F := Ideal) (s := S100000x256) (φ := .f32) (Cert.ReferenceIdeal.Tail.aggregate (F := Ideal)
                (W5 m ρ c (Proc.devRef .tc main_v19_0) : (⟨S100000x256, .f32⟩ : BufTy).Contents (Elt Ideal))
                (W5 m ρ c (Proc.devRef .tc main_v15) : (⟨S900000x256, .f32⟩ : BufTy).Contents (Elt Ideal))
                (W5 m ρ c (Proc.devRef .tc main_v3) : (⟨S900000, .i32⟩ : BufTy).Contents (Elt Ideal))
                (W5 m ρ c (Proc.devRef .tc main_v6) : (⟨S900000, .i32⟩ : BufTy).Contents (Elt Ideal)))
          (W5 m ρ c (Proc.devRef .tc main_v19_1) : (⟨S100000x256, .f32⟩ : BufTy).Contents (Elt Ideal))) := by
  show StableHlo.after hostOps2 (W5 m ρ c) (Proc.devRef .tc main_v39) = _
  dsimp only [hostOps2]
  after_results_simp
  rfl

/-- A buffer no operation of a stretch writes keeps its contents through the stretch. -/
local macro "unwritten " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## Through the first stretch: what the first region is entered with -/

set_option maxHeartbeats 4000000 in
/-- The endpoint lists: the two rows of the edge index, each with the node numbers appended. They are computed in the first
    stretch and nothing later writes them. -/
theorem rows_eq (c : Dev nD) :
    @Eq ((⟨S900000, .i32⟩ : BufTy).Contents (Elt Ideal)) (W5 m ρ c (Proc.devRef .tc main_v3))
      (Cert.ReferenceIdeal.Read.val_main_v3 (F := Ideal) (m ((c.tc : Thread nD τ).loc main_arg1))) := by
  refine (W5_of_ne m ρ c main_v3 (by decide)).trans ?_
  refine (show W4 m ρ c (Proc.devRef .tc main_v3) = W3 m ρ c (Proc.devRef .tc main_v3) from by unwritten hostOps1).trans ?_
  refine (W3_of_ne m ρ c main_v3 (by decide)).trans ?_
  refine (show W2 m ρ c (Proc.devRef .tc main_v3) = W1 m ρ c (Proc.devRef .tc main_v3) from by unwritten hostOps0_1).trans ?_
  show StableHlo.after hostOps0 (W0 m ρ c) (Proc.devRef .tc main_v3) = _
  dsimp only [hostOps0]
  after_results_simp
  unfold Cert.ReferenceIdeal.Read.val_main_v3 Cert.ReferenceIdeal.Read.val_main_v2 Cert.ReferenceIdeal.Read.val_main_v1
    Cert.ReferenceIdeal.Read.val_main_v0
  rfl

set_option maxHeartbeats 4000000 in
theorem cols_eq (c : Dev nD) :
    @Eq ((⟨S900000, .i32⟩ : BufTy).Contents (Elt Ideal)) (W5 m ρ c (Proc.devRef .tc main_v6))
      (Cert.ReferenceIdeal.Read.val_main_v6 (F := Ideal) (m ((c.tc : Thread nD τ).loc main_arg1))) := by
  refine (W5_of_ne m ρ c main_v6 (by decide)).trans ?_
  refine (show W4 m ρ c (Proc.devRef .tc main_v6) = W3 m ρ c (Proc.devRef .tc main_v6) from by unwritten hostOps1).trans ?_
  refine (W3_of_ne m ρ c main_v6 (by decide)).trans ?_
  refine (show W2 m ρ c (Proc.devRef .tc main_v6) = W1 m ρ c (Proc.devRef .tc main_v6) from by unwritten hostOps0_1).trans ?_
  show StableHlo.after hostOps0 (W0 m ρ c) (Proc.devRef .tc main_v6) = _
  dsimp only [hostOps0]
  after_results_simp
  unfold Cert.ReferenceIdeal.Read.val_main_v6 Cert.ReferenceIdeal.Read.val_main_v5 Cert.ReferenceIdeal.Read.val_main_v4
    Cert.ReferenceIdeal.Read.val_main_v0
  rfl

/-! ## What the shared chain reads of the two regions -/

set_option maxHeartbeats 4000000 in
/-- The gates: the first 900000 rows of the array the first region leaves. -/
theorem gates_eq (c : Dev nD) :
    @Eq ((⟨S900000x256, .f32⟩ : BufTy).Contents (Elt Ideal)) (W5 m ρ c (Proc.devRef .tc main_v15))
      (extractStridedSlice S900000x256 ![0, 0] ((dat0 (F := Ideal) (V2 m ρ) c).arrAt 5 cfg0.N)
        slices_S901120x256_S900000x256_0_0) := by
  refine (W5_of_ne m ρ c main_v15 (by decide)).trans ?_
  show StableHlo.after hostOps1 (W3 m ρ c) (Proc.devRef .tc main_v15) = _
  dsimp only [hostOps1]
  after_results_simp
  exact congrArg (fun a => extractStridedSlice S900000x256 ![0, 0] a slices_S901120x256_S900000x256_0_0) (W3_arr m ρ c 5)

/-- The message table: the first output array of the second region. -/
theorem table_eq (c : Dev nD) :
    @Eq ((⟨S100000x256, .f32⟩ : BufTy).Contents (Elt Ideal)) (W5 m ρ c (Proc.devRef .tc main_v19_0))
      ((dat1 (F := Ideal) (V4 m ρ) c).arrAt 3 cfg1.N) := W5_arr m ρ c 3

/-- The root array: its second output array. -/
theorem root_eq (c : Dev nD) :
    @Eq ((⟨S100000x256, .f32⟩ : BufTy).Contents (Elt Ideal)) (W5 m ρ c (Proc.devRef .tc main_v19_1))
      ((dat1 (F := Ideal) (V4 m ρ) c).arrAt 4 cfg1.N) := W5_arr m ρ c 4

/-! ## The first region's operands -/

set_option maxHeartbeats 4000000 in
/-- The attribute array as the first region finds it: the edge attributes with a zero row per node appended, padded by
    1120 further rows of some value. -/
theorem attrs_eq (c : Dev nD) : ∃ pv : (⟨S_, .f32⟩ : BufTy).Contents (Elt Ideal),
    @Eq ((⟨S901120x128, .f32⟩ : BufTy).Contents (Elt Ideal)) (V2 m ρ c main_v13)
      (pad S901120x128 ![0, 0] ![1120, 0] ![0, 0]
        (Cert.ReferenceIdeal.Read.val_main_v8 (F := Ideal) (m ((c.tc : Thread nD τ).loc main_arg2))) pv
        pads_S900000x128_S901120x128_011200_000 h_S_) := by
  refine ⟨?pv, ?h⟩
  case h =>
    show StableHlo.after hostOps0_1 (StableHlo.after hostOps0 (W0 m ρ c)) (Proc.devRef .tc main_v13) = _
    dsimp only [hostOps0_1, hostOps0]
    after_results_simp
    unfold Cert.ReferenceIdeal.Read.val_main_v8 Cert.ReferenceIdeal.Read.val_main_v7 Cert.ReferenceIdeal.Read.val_main_cst
    rfl

set_option maxHeartbeats 4000000 in
/-- The first layer's weights, transposed. -/
theorem w1_eq (c : Dev nD) :
    @Eq ((⟨S128x256, .f32⟩ : BufTy).Contents (Elt Ideal)) (V2 m ρ c main_v9)
      (transpose S128x256 [1, 0] (m ((c.tc : Thread nD τ).loc main_arg4)) transposes_S256x128_S128x256_1_0) := by
  show StableHlo.after hostOps0_1 (StableHlo.after hostOps0 (W0 m ρ c)) (Proc.devRef .tc main_v9) = _
  dsimp only [hostOps0_1, hostOps0]
  after_results_simp <;> rfl

set_option maxHeartbeats 4000000 in
/-- The first layer's bias as one row. -/
theorem b1_eq (c : Dev nD) :
    @Eq ((⟨S1x256, .f32⟩ : BufTy).Contents (Elt Ideal)) (V2 m ρ c main_v11)
      (shapeCast S1x256 (m ((c.tc : Thread nD τ).loc main_arg5)) shapeCasts_S256_S1x256) := by
  show StableHlo.after hostOps0_1 (StableHlo.after hostOps0 (W0 m ρ c)) (Proc.devRef .tc main_v11) = _
  dsimp only [hostOps0_1, hostOps0]
  after_results_simp <;> rfl

set_option maxHeartbeats 4000000 in
/-- The second layer's weights, transposed. -/
theorem w2_eq (c : Dev nD) :
    @Eq ((⟨S256x256, .f32⟩ : BufTy).Contents (Elt Ideal)) (V2 m ρ c main_v10)
      (transpose S256x256 [1, 0] (m ((c.tc : Thread nD τ).loc main_arg6)) transposes_S256x256_S256x256_1_0) := by
  show StableHlo.after hostOps0_1 (StableHlo.after hostOps0 (W0 m ρ c)) (Proc.devRef .tc main_v10) = _
  dsimp only [hostOps0_1, hostOps0]
  after_results_simp <;> rfl

set_option maxHeartbeats 4000000 in
/-- The second layer's bias as one row. -/
theorem b2_eq (c : Dev nD) :
    @Eq ((⟨S1x256, .f32⟩ : BufTy).Contents (Elt Ideal)) (V2 m ρ c main_v12)
      (shapeCast S1x256 (m ((c.tc : Thread nD τ).loc main_arg7)) shapeCasts_S256_S1x256) := by
  show StableHlo.after hostOps0_1 (StableHlo.after hostOps0 (W0 m ρ c)) (Proc.devRef .tc main_v12) = _
  dsimp only [hostOps0_1, hostOps0]
  after_results_simp <;> rfl

/-! ## The second region's operands -/

set_option maxHeartbeats 4000000 in
/-- A launch array the first region does not write is, after it, as launched. -/
theorem W3_launch (c : Dev nD) (b : Ref sig .tc) (hb : ∀ w, Pipeline.arrRef spec0 w ≠ b)
    (h : StableHlo.after hostOps0_1 (StableHlo.after hostOps0 (W0 m ρ c)) (Proc.devRef .tc b) = m ((c.tc : Thread nD τ).loc b)) :
    W3 m ρ c (Proc.devRef .tc b) = m ((c.tc : Thread nD τ).loc b) := (W3_of_ne m ρ c b hb).trans h

set_option maxHeartbeats 4000000 in
theorem W3_arg0 (c : Dev nD) : W3 m ρ c (Proc.devRef .tc main_arg0) = m ((c.tc : Thread nD τ).loc main_arg0) :=
  W3_launch m ρ c main_arg0 (by decide) (by dsimp only [hostOps0_1, hostOps0]; after_results_simp <;> rfl)
set_option maxHeartbeats 4000000 in
theorem W3_arg3 (c : Dev nD) : W3 m ρ c (Proc.devRef .tc main_arg3) = m ((c.tc : Thread nD τ).loc main_arg3) :=
  W3_launch m ρ c main_arg3 (by decide) (by dsimp only [hostOps0_1, hostOps0]; after_results_simp <;> rfl)
set_option maxHeartbeats 4000000 in
theorem W3_arg8 (c : Dev nD) : W3 m ρ c (Proc.devRef .tc main_arg8) = m ((c.tc : Thread nD τ).loc main_arg8) :=
  W3_launch m ρ c main_arg8 (by decide) (by dsimp only [hostOps0_1, hostOps0]; after_results_simp <;> rfl)
set_option maxHeartbeats 4000000 in
theorem W3_arg9 (c : Dev nD) : W3 m ρ c (Proc.devRef .tc main_arg9) = m ((c.tc : Thread nD τ).loc main_arg9) :=
  W3_launch m ρ c main_arg9 (by decide) (by dsimp only [hostOps0_1, hostOps0]; after_results_simp <;> rfl)

set_option maxHeartbeats 4000000 in
/-- The node features as the second region finds them: as launched. -/
theorem x_eq (c : Dev nD) :
    @Eq ((⟨S100000x512, .f32⟩ : BufTy).Contents (Elt Ideal)) (V4 m ρ c main_arg0) (m ((c.tc : Thread nD τ).loc main_arg0)) := by
  show StableHlo.after hostOps1 (W3 m ρ c) (Proc.devRef .tc main_arg0) = _
  dsimp only [hostOps1]
  after_results_simp
  exact W3_arg0 m ρ c

set_option maxHeartbeats 4000000 in
/-- The two weight matrices stacked and transposed. -/
theorem wt_eq (c : Dev nD) :
    @Eq ((⟨S512x512, .f32⟩ : BufTy).Contents (Elt Ideal)) (V4 m ρ c main_v17)
      (transpose S512x512 [1, 0]
        (concatenate S512x512 0
          [⟨S256x512, (m ((c.tc : Thread nD τ).loc main_arg3) : (⟨S256x512, .f32⟩ : BufTy).Contents (Elt Ideal))⟩,
           ⟨S256x512, (m ((c.tc : Thread nD τ).loc main_arg8) : (⟨S256x512, .f32⟩ : BufTy).Contents (Elt Ideal))⟩]
          concatenates_S256x512_S256x512_S512x512_d0) transposes_S512x512_S512x512_1_0) := by
  show StableHlo.after hostOps1 (W3 m ρ c) (Proc.devRef .tc main_v17) = _
  dsimp only [hostOps1]
  after_results
  rw [W3_arg3 m ρ c, W3_arg8 m ρ c]

set_option maxHeartbeats 4000000 in
/-- The root bias as one row. -/
theorem broot_eq (c : Dev nD) :
    @Eq ((⟨S1x256, .f32⟩ : BufTy).Contents (Elt Ideal)) (V4 m ρ c main_v18)
      (shapeCast S1x256 (m ((c.tc : Thread nD τ).loc main_arg9)) shapeCasts_S256_S1x256) := by
  show StableHlo.after hostOps1 (W3 m ρ c) (Proc.devRef .tc main_v18) = _
  dsimp only [hostOps1]
  after_results_simp
  rw [W3_arg9 m ρ c]
  rfl

end Cert.KernelIdeal.HostK

end
-- ==== Proof.Spec.lean ====
/-
  The functions this certificate is about, entry by entry, over the extended reals.

  An edge's gate is a two-layer perceptron of its attribute row: the first layer is affine followed by the positive part,
  the second is affine followed by the logistic function. A node's message table and its root term are two halves of one
  matrix product of the node features with the two weight matrices stacked, the root half with a bias added.
  The weights are taken already transposed (inputs along the rows) and the biases as one-row matrices, which is how the
  tiled program holds them; the number of rows is a parameter, so the same function speaks of a tile, of the padded
  array and of the unpadded one.
-/
import Idealize.ShloMosaic.PureOps.Ideal
import Idealize.ShloMosaic.Lib.ValueIdx

noncomputable section

open scoped BigOperators

namespace Cert.PDN

open Idealize.ShloMosaic Idealize.ShloMosaic.ValueIdx

/-- Hidden unit `k` of the edge network on attribute row `r`: the positive part of `∑_j ea_{r,j} · w1t_{j,k} + b1_k`. -/
def hidden {E : Nat} (ea : (⟨2, ![E, 128]⟩ : Shape).Idx → EReal) (w1t : (⟨2, ![128, 256]⟩ : Shape).Idx → EReal)
    (b1 : (⟨2, ![1, 256]⟩ : Shape).Idx → EReal) (r : Fin E) (k : Fin 256) : EReal :=
  max ((∑ j : Fin 128, ea (ix2 r j) * w1t (ix2 j k)) + b1 (ix2 (0 : Fin 1) k)) (Ideal.ofBits .f32 0x00000000#32)

/-- The gate of row `r`, channel `c`: the logistic function of `∑_k hidden_{r,k} · w2t_{k,c} + b2_c`. -/
def gateAt {E : Nat} (ea : (⟨2, ![E, 128]⟩ : Shape).Idx → EReal) (w1t : (⟨2, ![128, 256]⟩ : Shape).Idx → EReal)
    (b1 : (⟨2, ![1, 256]⟩ : Shape).Idx → EReal) (w2t : (⟨2, ![256, 256]⟩ : Shape).Idx → EReal)
    (b2 : (⟨2, ![1, 256]⟩ : Shape).Idx → EReal) (r : Fin E) (c : Fin 256) : EReal :=
  Ideal.logistic ((∑ k : Fin 256, hidden ea w1t b1 r k * w2t (ix2 k c)) + b2 (ix2 (0 : Fin 1) c))

/-- The gates of all rows as one array. -/
def gateK {E : Nat} (ea : (⟨2, ![E, 128]⟩ : Shape).Idx → EReal) (w1t : (⟨2, ![128, 256]⟩ : Shape).Idx → EReal)
    (b1 : (⟨2, ![1, 256]⟩ : Shape).Idx → EReal) (w2t : (⟨2, ![256, 256]⟩ : Shape).Idx → EReal)
    (b2 : (⟨2, ![1, 256]⟩ : Shape).Idx → EReal) : (⟨2, ![E, 256]⟩ : Shape).Idx → EReal :=
  fun i => gateAt ea w1t b1 w2t b2 ⟨(i 0).val, idx2_lt0 i⟩ ⟨(i 1).val, idx2_lt1 i⟩

theorem gateK_ix2 {E : Nat} (ea : (⟨2, ![E, 128]⟩ : Shape).Idx → EReal) (w1t : (⟨2, ![128, 256]⟩ : Shape).Idx → EReal)
    (b1 : (⟨2, ![1, 256]⟩ : Shape).Idx → EReal) (w2t : (⟨2, ![256, 256]⟩ : Shape).Idx → EReal)
    (b2 : (⟨2, ![1, 256]⟩ : Shape).Idx → EReal) (r : Fin E) (c : Fin 256) :
    gateK ea w1t b1 w2t b2 (ix2 r c) = gateAt ea w1t b1 w2t b2 r c := rfl

/-- Column `c` of the first half of the stacked weights `wt` (512 inputs by 512 outputs): node row `r` times it. -/
def nodeAt {N : Nat} (x : (⟨2, ![N, 512]⟩ : Shape).Idx → EReal) (wt : (⟨2, ![512, 512]⟩ : Shape).Idx → EReal)
    (r : Fin N) (c : Fin 256) : EReal :=
  ∑ k : Fin 512, x (ix2 r k) * wt (ix2 k ⟨c.val, by have := c.isLt; omega⟩)

/-- Column `256 + c` of the stacked weights, plus the root bias's entry `c`. -/
def rootAt {N : Nat} (x : (⟨2, ![N, 512]⟩ : Shape).Idx → EReal) (wt : (⟨2, ![512, 512]⟩ : Shape).Idx → EReal)
    (b : (⟨2, ![1, 256]⟩ : Shape).Idx → EReal) (r : Fin N) (c : Fin 256) : EReal :=
  (∑ k : Fin 512, x (ix2 r k) * wt (ix2 k ⟨256 + c.val, by have := c.isLt; omega⟩)) + b (ix2 (0 : Fin 1) c)

/-- The node messages of all rows as one array. -/
def nodeK {N : Nat} (x : (⟨2, ![N, 512]⟩ : Shape).Idx → EReal) (wt : (⟨2, ![512, 512]⟩ : Shape).Idx → EReal) :
    (⟨2, ![N, 256]⟩ : Shape).Idx → EReal :=
  fun i => nodeAt x wt ⟨(i 0).val, idx2_lt0 i⟩ ⟨(i 1).val, idx2_lt1 i⟩

/-- The root terms of all rows as one array. -/
def rootK {N : Nat} (x : (⟨2, ![N, 512]⟩ : Shape).Idx → EReal) (wt : (⟨2, ![512, 512]⟩ : Shape).Idx → EReal)
    (b : (⟨2, ![1, 256]⟩ : Shape).Idx → EReal) : (⟨2, ![N, 256]⟩ : Shape).Idx → EReal :=
  fun i => rootAt x wt b ⟨(i 0).val, idx2_lt0 i⟩ ⟨(i 1).val, idx2_lt1 i⟩

theorem nodeK_ix2 {N : Nat} (x : (⟨2, ![N, 512]⟩ : Shape).Idx → EReal) (wt : (⟨2, ![512, 512]⟩ : Shape).Idx → EReal)
    (r : Fin N) (c : Fin 256) : nodeK x wt (ix2 r c) = nodeAt x wt r c := rfl

theorem rootK_ix2 {N : Nat} (x : (⟨2, ![N, 512]⟩ : Shape).Idx → EReal) (wt : (⟨2, ![512, 512]⟩ : Shape).Idx → EReal)
    (b : (⟨2, ![1, 256]⟩ : Shape).Idx → EReal) (r : Fin N) (c : Fin 256) : rootK x wt b (ix2 r c) = rootAt x wt b r c := rfl

end Cert.PDN

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibAffineRow.lean ====
/-
  A general fact about a dense layer whose bias is already a one-row matrix, at the ideal values.

  A kernel's matrix product with the plain dimension numbers (rows by columns, one contracted axis, no batch axis)
  accumulated into the zero splat, plus a bias kept as a [1, n] row (cast to its own shape, as a block load leaves it) and
  broadcast down the rows, read at entry (r, c), is the inner product of row r of the left factor with column c of the
  right one plus the bias's entry c; and the same number as one function `affine A B b` of the output index, so that a
  tiled kernel's output array can be stated as that one function of its three input arrays.
-/
import Idealize.ShloMosaic.Lib.ValueIdx
import Idealize.ShloMosaic.Lib.ValueLayout
import Idealize.ShloMosaic.Lib.Pipeline.Value
import Idealize.ShloMosaic.PureOps.Ideal.Laws
import proofs.«113082_j64707977282150_1_alg».proof.Proof.LibMatmulPlain

noncomputable section

open scoped BigOperators

namespace Cert.LibAffineRow

open Idealize.ShloMosaic Idealize.ShloMosaic.ValueIdx

/-- A matrix product with the plain dimension numbers into the zero splat, plus a one-row bias (cast to its own shape)
    broadcast down the rows, at entry (r, c): the inner product of row r with column c, plus the bias's entry c. -/
theorem affine_row_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨2, ![1, n]⟩ .f32)
    (h1 : (⟨2, ![1, n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix2 (0 : Fin 1) c) := by
  subst hdd
  rw [addf_apply, Cert.LibMatmulPlain.matmul_plain_zero_apply, broadcastTo_1b_ab_apply, shapeCast_self]

/-- The affine map of a matrix A [m, k], weights B [k, n] and a one-row bias b [1, n], as one function of the output index. -/
def affine {m k n : Nat} (A : (⟨2, ![m, k]⟩ : Shape).Idx → EReal) (B : (⟨2, ![k, n]⟩ : Shape).Idx → EReal)
    (b : (⟨2, ![1, n]⟩ : Shape).Idx → EReal) : (⟨2, ![m, n]⟩ : Shape).Idx → EReal :=
  fun i => (∑ κ : Fin k, A (ix2 (⟨(i 0).val, idx2_lt0 i⟩ : Fin m) κ) * B (ix2 κ (⟨(i 1).val, idx2_lt1 i⟩ : Fin n)))
    + b (ix2 (0 : Fin 1) (⟨(i 1).val, idx2_lt1 i⟩ : Fin n))

/-- At the index with coordinates (r, q) it is the inner product of row r with column q, plus the bias's entry q. -/
theorem affine_ix2 {m k n : Nat} (A : (⟨2, ![m, k]⟩ : Shape).Idx → EReal) (B : (⟨2, ![k, n]⟩ : Shape).Idx → EReal)
    (b : (⟨2, ![1, n]⟩ : Shape).Idx → EReal) (r : Fin m) (q : Fin n) :
    affine A B b (ix2 r q) = (∑ κ : Fin k, A (ix2 r κ) * B (ix2 κ q)) + b (ix2 (0 : Fin 1) q) := rfl

end Cert.LibAffineRow

end
-- ==== Proof.Region0.lean ====
/-
  The edge network's region: the gate array the tiled program leaves.

  Each of the 220 tiles reads 4096 rows of the padded attributes and the whole of the two weight matrices and the two
  one-row biases, and writes the gates of those 4096 rows; the tiles' row ranges are consecutive and fill the 901120
  rows, so the array the region leaves is the gate function of the five arrays it was entered with.
-/
import proofs.«113082_j64707977282150_1_alg».proof.Proof.Gen.KernelIdeal.Frame
import proofs.«113082_j64707977282150_1_alg».proof.Proof.Spec
import proofs.«113082_j64707977282150_1_alg».proof.Proof.LibAffineRow

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## A tile's arithmetic at an entry -/

/-- A value cast to its own shape and then narrowed reads, at the ideal values, as the value itself. -/
theorem narrowed_self_apply {s : Shape} (x : FVec Ideal s .f32) (h : s.ShapeCasts s) (hb : FTy.bf16.bits < FTy.f32.bits)
    (i : s.Idx) : (truncf .bf16 (shapeCast s x h) hb : FVec Ideal s .bf16) i = x i :=
  congrFun (shapeCast_self x h) i

/-- The first layer of a tile's arithmetic at entry (r, k): hidden unit k of the tile's row r. -/
theorem hidden_apply (x0 : FVec Ideal S4096x128 .f32) (x1 : FVec Ideal S128x256 .f32) (x2 : FVec Ideal S1x256 .f32)
    (r : Fin 4096) (k : Fin 256) :
    (truncf .bf16
      (maximumf
        (addf
          (matmul dot_S4096x128_S128x256_S4096x256_1_0_0_1_n_n none
            (truncf .bf16 (shapeCast S4096x128 x0 shapeCasts_S4096x128_S4096x128) bitsLt_bf16_f32)
            (truncf .bf16 (shapeCast S128x256 x1 shapeCasts_S128x256_S128x256) bitsLt_bf16_f32)
            (constant (F := Ideal) S4096x256 .f32 0x00000000#32))
          (broadcastTo S4096x256 (shapeCast S1x256 x2 shapeCasts_S1x256_S1x256) broadcasts_S1x256_S4096x256))
        (broadcast S4096x256 (Scalar.ofBits (F := Ideal) .f32 0x00000000#32)))
      bitsLt_bf16_f32 : FVec Ideal S4096x256 .bf16) (ix2 r k)
      = Cert.PDN.hidden (E := 4096) x0 x1 x2 r k := by
  unfold Cert.PDN.hidden
  refine congrArg (fun z => max z (Ideal.ofBits .f32 0x00000000#32)) ?_
  refine (Cert.LibAffineRow.affine_row_apply _ (by rfl) none _ _ x2 _ _ r k).trans ?_
  refine congrArg (fun z => z + x2 (ix2 (0 : Fin 1) k)) ?_
  refine Finset.sum_congr rfl fun j _ => ?_
  rw [narrowed_self_apply, narrowed_self_apply]

/-- A tile's arithmetic at entry (p, q) is the gate of row p, channel q, of the tile's own five blocks. -/
theorem pay_apply (x0 : FVec Ideal S4096x128 .f32) (x1 : FVec Ideal S128x256 .f32) (x2 : FVec Ideal S1x256 .f32)
    (x3 : FVec Ideal S256x256 .f32) (x4 : FVec Ideal S1x256 .f32) (p : Fin 4096) (q : Fin 256) :
    k0_pay1 (F := Ideal) x0 x1 x2 x3 x4 (ix2 p q) = Cert.PDN.gateAt (E := 4096) x0 x1 x2 x3 x4 p q := by
  unfold k0_pay1 Cert.PDN.gateAt
  refine congrArg Ideal.logistic ?_
  refine (Cert.LibAffineRow.affine_row_apply _ (by rfl) none _ _ x4 _ _ p q).trans ?_
  refine congrArg (fun z => z + x4 (ix2 (0 : Fin 1) q)) ?_
  refine Finset.sum_congr rfl fun k _ => ?_
  rw [hidden_apply, narrowed_self_apply]

/-- The gate of a row depends on the attribute array only through that row: two attribute arrays, of whatever numbers
    of rows, that agree on a row of each give the same gates there. -/
theorem gateAt_congr {E E' : Nat} (A : (⟨2, ![E, 128]⟩ : Shape).Idx → EReal) (A' : (⟨2, ![E', 128]⟩ : Shape).Idx → EReal)
    (w1t : (⟨2, ![128, 256]⟩ : Shape).Idx → EReal) (b1 : (⟨2, ![1, 256]⟩ : Shape).Idx → EReal)
    (w2t : (⟨2, ![256, 256]⟩ : Shape).Idx → EReal) (b2 : (⟨2, ![1, 256]⟩ : Shape).Idx → EReal)
    (r : Fin E) (r' : Fin E') (h : ∀ j : Fin 128, A (ix2 r j) = A' (ix2 r' j)) (q : Fin 256) :
    Cert.PDN.gateAt A w1t b1 w2t b2 r q = Cert.PDN.gateAt A' w1t b1 w2t b2 r' q := by
  unfold Cert.PDN.gateAt Cert.PDN.hidden
  simp only [h]

/-- A tile's arithmetic is the tile's block of the gate array: when the tile's attribute block is rows
    `i · 4096 …` of the attribute array and its other four blocks are the whole weight and bias arrays, its entry `j` is
    the gate array's entry at the index `j` sits at in the array (`emb j`: row `i · 4096 + j₀`, column `j₁`). -/
theorem block_gate (A : S901120x128.Idx → EReal) (W1 : S128x256.Idx → EReal) (B1 : S1x256.Idx → EReal)
    (W2 : S256x256.Idx → EReal) (B2 : S1x256.Idx → EReal)
    (x0 : FVec Ideal S4096x128 .f32) (x1 : FVec Ideal S128x256 .f32) (x2 : FVec Ideal S1x256 .f32)
    (x3 : FVec Ideal S256x256 .f32) (x4 : FVec Ideal S1x256 .f32) (i : Nat)
    (emb : S4096x256.Idx → S901120x256.Idx)
    (hemb0 : ∀ j, (emb j 0).val = i * 4096 + (j 0).val) (hemb1 : ∀ j, (emb j 1).val = (j 1).val)
    (h0 : ∀ (y : S4096x128.Idx) (k : S901120x128.Idx), (k 0).val = i * 4096 + (y 0).val → (k 1).val = (y 1).val → x0 y = A k)
    (h1 : x1 = W1) (h2 : x2 = B1) (h3 : x3 = W2) (h4 : x4 = B2) (j : S4096x256.Idx) :
    k0_pay1 (F := Ideal) x0 x1 x2 x3 x4 j = Cert.PDN.gateK (E := 901120) A W1 B1 W2 B2 (emb j) := by
  subst h1 h2 h3 h4
  obtain ⟨p, q, rfl⟩ : ∃ (p : Fin 4096) (q : Fin 256), j = ix2 p q := ⟨j 0, j 1, eq_ix2 j⟩
  rw [pay_apply]
  show _ = Cert.PDN.gateAt A x1 x2 x3 x4 ⟨(emb (ix2 p q) 0).val, idx2_lt0 _⟩ ⟨(emb (ix2 p q) 1).val, idx2_lt1 _⟩
  have hq : (⟨(emb (ix2 p q) 1).val, idx2_lt1 _⟩ : Fin 256) = q := Fin.ext (hemb1 _)
  rw [hq]
  exact gateAt_congr x0 A x1 x2 x3 x4 p _ (fun k => h0 _ _ (hemb0 _) rfl) q

/-! ## The tiles' blocks -/

theorem hz : (![0, 0] : Fin 2 → Nat) = fun _ => 0 := funext fun a => by fin_cases a <;> rfl

/-- The block indices, decided over the 220 tiles: the output's block of tile `t` is block `(t, 0)`, the attributes'
    block moves with it, and each weight matrix and bias is its one whole block `(0, 0)`. -/
theorem idx_facts : ∀ t : Fin cfg0.N, win0_5.index t (0 : Fin 2) = t.val
    ∧ win0_5.index t (1 : Fin 2) = 0
    ∧ win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

section Blocks
variable (V : (c : Dev nD) → (b : Ref sig .tc) → Buf (Elt Ideal) ((c : Thread nD τ).loc b)) (c : Dev nD)

/-- The attributes' block at tile `t` is rows `t · 4096 …` of the attribute array. -/
theorem attr_block (t : Fin cfg0.N) (y : S4096x128.Idx) (k : S901120x128.Idx)
    (hk0 : (k 0).val = win0_5.index t (0 : Fin 2) * 4096 + (y 0).val) (hk1 : (k 1).val = (y 1).val) :
    (iblk0 V c 0 t : FVec Ideal S4096x128 .f32) y = (V c main_v13 : S901120x128.Idx → EReal) k := by
  obtain ⟨-, -, e0, e1, -⟩ := idx_facts t
  unfold iblk0
  rw [View.read_apply]
  show V c main_v13 (((cfg0.win 0).blk t).view.emb y) = V c main_v13 k
  refine congrArg _ (funext fun a => Fin.ext ?_)
  match a with
  | ⟨0, _⟩ => show win0_0.index t (0 : Fin 2) * 4096 + 1 * (y 0).val = (k 0).val; omega
  | ⟨1, _⟩ => show win0_0.index t (1 : Fin 2) * 128 + 1 * (y 1).val = (k 1).val; omega

/-- The first weight matrix's block at any tile is the whole matrix. -/
theorem w1_block (t : Fin cfg0.N) : (iblk0 V c 1 t : FVec Ideal S128x256 .f32) = (V c main_v9 : S128x256.Idx → EReal) := by
  obtain ⟨-, -, -, -, e0, e1, -⟩ := idx_facts t
  funext y
  unfold iblk0
  rw [View.read_apply]
  show V c main_v9 (((cfg0.win 1).blk t).view.emb y) = V c main_v9 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The first bias's block at any tile is the whole row. -/
theorem b1_block (t : Fin cfg0.N) : (iblk0 V c 2 t : FVec Ideal S1x256 .f32) = (V c main_v11 : S1x256.Idx → EReal) := by
  obtain ⟨-, -, -, -, -, -, e0, e1, -⟩ := idx_facts t
  funext y
  unfold iblk0
  rw [View.read_apply]
  show V c main_v11 (((cfg0.win 2).blk t).view.emb y) = V c main_v11 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The second weight matrix's block at any tile is the whole matrix. -/
theorem w2_block (t : Fin cfg0.N) : (iblk0 V c 3 t : FVec Ideal S256x256 .f32) = (V c main_v10 : S256x256.Idx → EReal) := by
  obtain ⟨-, -, -, -, -, -, -, -, e0, e1, -⟩ := idx_facts t
  funext y
  unfold iblk0
  rw [View.read_apply]
  show V c main_v10 (((cfg0.win 3).blk t).view.emb y) = V c main_v10 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- The second bias's block at any tile is the whole row. -/
theorem b2_block (t : Fin cfg0.N) : (iblk0 V c 4 t : FVec Ideal S1x256 .f32) = (V c main_v12 : S1x256.Idx → EReal) := by
  obtain ⟨-, -, -, -, -, -, -, -, -, -, e0, e1⟩ := idx_facts t
  funext y
  unfold iblk0
  rw [View.read_apply]
  show V c main_v12 (((cfg0.win 4).blk t).view.emb y) = V c main_v12 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-! ## From the tiles to the array -/

/-- What tile `t` writes back is block `t` of the gate array of the five arrays the region was entered with. -/
theorem flushed_eq (t : Fin cfg0.N) :
    (dat0 (F := Ideal) V c).flushed 5 t = ((cfg0.win 5).blk t).view.read (Elt Ideal)
      (Cert.PDN.gateK (E := 901120) (V c main_v13) (V c main_v9) (V c main_v11) (V c main_v10) (V c main_v12)) := by
  show (cfg0.win 5).cut (grid0.coords t) ((dat0 V c).after 5 t) = _
  rw [after0_5]
  unfold out0_5
  rw [View.canon_unit_zero hz]
  simp only [View.ld_unit_zero (S := S4096x128) hz, View.ld_unit_zero (S := S128x256) hz,
    View.ld_unit_zero (S := S1x256) hz, View.ld_unit_zero (S := S256x256) hz]
  obtain ⟨-, e1, -⟩ := idx_facts t
  funext j
  show k0_pay1 (F := Ideal) (iblk0 V c 0 t) (iblk0 V c 1 t) (iblk0 V c 2 t) (iblk0 V c 3 t) (iblk0 V c 4 t) j
    = Cert.PDN.gateK (E := 901120) (V c main_v13) (V c main_v9) (V c main_v11) (V c main_v10) (V c main_v12)
        (((cfg0.win 5).blk t).view.emb j)
  refine block_gate (V c main_v13) (V c main_v9) (V c main_v11) (V c main_v10) (V c main_v12)
    (iblk0 V c 0 t) (iblk0 V c 1 t) (iblk0 V c 2 t) (iblk0 V c 3 t) (iblk0 V c 4 t) (win0_5.index t (0 : Fin 2))
    (((cfg0.win 5).blk t).view.emb) (fun y => ?_) (fun y => ?_) (fun y k hk0 hk1 => attr_block V c t y k hk0 hk1)
    (w1_block V c t) (b1_block V c t) (w2_block V c t) (b2_block V c t) j
  · show win0_5.index t (0 : Fin 2) * 4096 + 1 * (y 0).val = win0_5.index t (0 : Fin 2) * 4096 + (y 0).val; omega
  · show win0_5.index t (1 : Fin 2) * 256 + 1 * (y 1).val = (y 1).val; omega

/-- An index of the gate array is in tile `t`'s block iff each coordinate is in the block's range on its axis. -/
theorem mem_blk (t : Fin cfg0.N) (i : S901120x256.Idx) :
    i ∈ ((cfg0.win 5).blk t).view.set ↔ ∀ a : Fin 2, win0_5.index t a * S4096x256.size a ≤ (i a).val
      ∧ (i a).val < win0_5.index t a * S4096x256.size a + S4096x256.size a := by
  show i ∈ ((View.whole main_v14).slice (win0_5.rect t)).set ↔ _
  rw [View.set_slice_whole, Rect.mem_set_unit]
  exact Iff.rfl

/-- Every index of the gate array is in some tile's block: row `r` is in tile `r / 4096`'s (220 · 4096 = 901120). -/
theorem cover (i : S901120x256.Idx) :
    ∃ t : Fin cfg0.N, (cfg0.win 5).flush t = true ∧ i ∈ ((cfg0.win 5).blk t).view.set := by
  have hi0 : (i 0).val < 901120 := (i 0).isLt
  have hi1 : (i 1).val < 256 := (i 1).isLt
  have hN : cfg0.N = 220 := N_0
  have ht : (i 0).val / 4096 < cfg0.N := by rw [hN]; omega
  refine ⟨⟨(i 0).val / 4096, ht⟩, flush0_5 _, ?_⟩
  obtain ⟨e0, e1, -⟩ := idx_facts ⟨(i 0).val / 4096, ht⟩
  have e0' : win0_5.index ⟨(i 0).val / 4096, ht⟩ (0 : Fin 2) = (i 0).val / 4096 := e0
  rw [mem_blk]
  intro a
  match a with
  | ⟨0, _⟩ =>
    show win0_5.index _ (0 : Fin 2) * 4096 ≤ (i 0).val ∧ (i 0).val < win0_5.index _ (0 : Fin 2) * 4096 + 4096
    omega
  | ⟨1, _⟩ =>
    show win0_5.index _ (1 : Fin 2) * 256 ≤ (i 1).val ∧ (i 1).val < win0_5.index _ (1 : Fin 2) * 256 + 256
    omega

end Blocks

/-- After the edge network's region the gate array is, entry by entry, the gate function of the five arrays the region
    was entered with: the padded attributes, the two transposed weight matrices and the two one-row biases. -/
theorem arr (V : (c : Dev nD) → (b : Ref sig .tc) → Buf (Elt Ideal) ((c : Thread nD τ).loc b)) (c : Dev nD) :
    (dat0 (F := Ideal) V c).arrAt 5 cfg0.N
      = Cert.PDN.gateK (E := 901120) (V c main_v13) (V c main_v9) (V c main_v11) (V c main_v10) (V c main_v12) :=
  (dat0 (F := Ideal) V c).arrAt_eq_of_cover 5
    (Cert.PDN.gateK (E := 901120) (V c main_v13) (V c main_v9) (V c main_v11) (V c main_v10) (V c main_v12))
    (fun t _ => flushed_eq V c t) (cover)

end Cert.KernelIdeal.Region0

end
-- ==== Proof.Region1.lean ====
/-
  The node projection's region: the message table and the root term the tiled program leaves.
-/
import proofs.«113082_j64707977282150_1_alg».proof.Proof.Gen.KernelIdeal.Frame
import proofs.«113082_j64707977282150_1_alg».proof.Proof.Spec
import proofs.«113082_j64707977282150_1_alg».proof.Proof.LibMatmulPlain
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The tile's arithmetic at an entry -/

/-- The tile's product at entry (p, q): row `p` of the feature tile against column `q` of the stacked weights (the two
    roundings to the narrow format are the identity on the extended reals, and so is the reshape to the same shape). -/
theorem prod_apply (x0 : Vec Ideal S2000x512 .f32) (x1 : Vec Ideal S512x512 .f32) (p : Fin 2000) (q : Fin 512) :
    k1_pay1 (F := Ideal) x0 x1 (ix2 p q) = ∑ k : Fin 512, x0 (ix2 p k) * x1 (ix2 k q) := by
  unfold k1_pay1
  rw [shapeCast_self]
  exact Cert.LibMatmulPlain.matmul_plain_zero_apply none _ _ p q

/-- The left half of the product's columns is the message table's tile. -/
theorem node_tile_apply (x0 : Vec Ideal S2000x512 .f32) (x1 : Vec Ideal S512x512 .f32) (p : Fin 2000) (q : Fin 256) :
    k1_pay2 (F := Ideal) x0 x1 (ix2 p q) = Cert.PDN.nodeAt (N := 2000) x0 x1 p q := by
  unfold k1_pay2
  refine (extractStridedSlice_apply _ _ _ (ix2 p q) (ix2 p ⟨q.val, by have := q.isLt; omega⟩) (fun a => ?_)).trans ?_
  · match a with
    | ⟨0, _⟩ => show p.val = 0 + p.val; omega
    | ⟨1, _⟩ => show q.val = 0 + q.val; omega
  · exact prod_apply x0 x1 p _

/-- The right half of the product's columns, plus the one-row bias down the rows, is the root term's tile. -/
theorem root_tile_apply (x0 : Vec Ideal S2000x512 .f32) (x1 : Vec Ideal S512x512 .f32) (x2 : Vec Ideal S1x256 .f32)
    (p : Fin 2000) (q : Fin 256) :
    k1_pay3 (F := Ideal) x0 x1 x2 (ix2 p q) = Cert.PDN.rootAt (N := 2000) x0 x1 x2 p q := by
  unfold k1_pay3
  rw [shapeCast_self]
  refine (addf_apply _ _ _).trans ?_
  unfold Cert.PDN.rootAt
  congr 1
  · refine (extractStridedSlice_apply _ _ _ (ix2 p q) (ix2 p ⟨256 + q.val, by have := q.isLt; omega⟩) (fun a => ?_)).trans ?_
    · match a with
      | ⟨0, _⟩ => show p.val = 0 + p.val; omega
      | ⟨1, _⟩ => show 256 + q.val = 256 + q.val; rfl
    · exact prod_apply x0 x1 p _
  · exact broadcastTo_1b_ab_apply _ _ p q

/-! ## Where a point's tiles sit in the arrays -/

/-- The zero offsets, as a constant function. -/
theorem hz : (![0, 0] : Fin 2 → Nat) = fun _ => 0 := funext fun a => by fin_cases a <;> rfl

/-- The tiles' index maps, decided over the fifty points: the feature tile and the two output tiles of point `t` are the
    `t`-th row blocks, and the weights and the bias are each one whole block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

section Tiles

variable (V : (c : Dev nD) → (b : Ref sig .tc) → Buf (Elt Ideal) ((c : Thread nD τ).loc b))

/-- The feature tile of point `t` is rows `2000 t … 2000 t + 1999` of the feature array. -/
theorem feat_blk_apply (c : Dev nD) (t : Fin cfg1.N) (x : S2000x512.Idx) (k : S100000x512.Idx)
    (hk0 : (k 0).val = 2000 * t.val + (x 0).val) (hk1 : (k 1).val = (x 1).val) :
    (iblk1 (F := Ideal) V c 0 t : Vec Ideal S2000x512 .f32) x = (V c main_arg0 : S100000x512.Idx → Elt Ideal .f32) k := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 2000 + 1 * (x 0).val = (k 0).val; rw [e0, hk0]; omega
  | ⟨1, _⟩ => show win1_0.index t 1 * 512 + 1 * (x 1).val = (k 1).val; rw [e1, hk1]; omega

/-- The weights' one block is the weight array. -/
theorem wt_blk_eq (c : Dev nD) (t : Fin cfg1.N) :
    (iblk1 (F := Ideal) V c 1 t : Vec Ideal S512x512 .f32) = (V c main_v17 : S512x512.Idx → Elt Ideal .f32) := by
  obtain ⟨-, -, e0, e1, -⟩ := idx_facts t
  funext x
  unfold iblk1
  rw [View.read_apply]
  show V c main_v17 _ = V c main_v17 _
  congr 1
  funext a
  apply Fin.ext
  match a with
  | ⟨0, _⟩ => show win1_1.index t 0 * 512 + 1 * (x 0).val = (x 0).val; rw [e0]; omega
  | ⟨1, _⟩ => show win1_1.index t 1 * 512 + 1 * (x 1).val = (x 1).val; rw [e1]; omega

/-- The bias's one block is the bias row. -/
theorem bias_blk_eq (c : Dev nD) (t : Fin cfg1.N) :
    (iblk1 (F := Ideal) V c 2 t : Vec Ideal S1x256 .f32) = (V c main_v18 : S1x256.Idx → Elt Ideal .f32) := by
  obtain ⟨-, -, -, -, e0, e1, -⟩ := idx_facts t
  funext x
  unfold iblk1
  rw [View.read_apply]
  show V c main_v18 _ = V c main_v18 _
  congr 1
  funext a
  apply Fin.ext
  match a with
  | ⟨0, _⟩ => show win1_2.index t 0 * 1 + 1 * (x 0).val = (x 0).val; rw [e0]; omega
  | ⟨1, _⟩ => show win1_2.index t 1 * 256 + 1 * (x 1).val = (x 1).val; rw [e1]; omega

/-- What point `t` writes back to the message table is its tile of the whole table. -/
theorem flushed_node (c : Dev nD) (t : Fin cfg1.N) :
    (dat1 (F := Ideal) V c).flushed 3 t
      = ((cfg1.win 3).blk t).view.read (Elt Ideal) (Cert.PDN.nodeK (N := 100000) (V c main_arg0) (V c main_v17)) := by
  show (cfg1.win 3).cut (grid1.coords t) ((dat1 V c).after 3 t) = _
  rw [after1_3]
  unfold out1_3
  rw [View.canon_unit_zero hz]
  simp only [View.ld_unit_zero (S := S2000x512) hz, View.ld_unit_zero (S := S512x512) hz]
  funext j
  obtain ⟨p, q, rfl⟩ : ∃ (p : Fin 2000) (q : Fin 256), j = ix2 p q := ⟨j 0, j 1, eq_ix2 j⟩
  obtain ⟨-, -, -, -, -, -, e0, e1, -⟩ := idx_facts t
  show k1_pay2 (F := Ideal) (iblk1 V c 0 t) (iblk1 V c 1 t) (ix2 p q)
      = Cert.PDN.nodeK (N := 100000) (V c main_arg0) (V c main_v17) (((cfg1.win 3).blk t).view.emb (ix2 p q))
  refine (node_tile_apply (iblk1 V c 0 t) (iblk1 V c 1 t) p q).trans ?_
  rw [wt_blk_eq V c t]
  unfold Cert.PDN.nodeK Cert.PDN.nodeAt
  refine Finset.sum_congr rfl fun k _ => congrArg₂ (· * ·) ?_ ?_
  · refine feat_blk_apply V c t (ix2 p k) _ ?_ rfl
    show win1_3.index t 0 * 2000 + 1 * p.val = 2000 * t.val + p.val
    rw [e0]; omega
  · refine congrArg (V c main_v17) (congrArg (ix2 k) (Fin.ext ?_))
    show q.val = win1_3.index t 1 * 256 + 1 * q.val
    rw [e1]; omega

/-- What point `t` writes back to the root array is its tile of the whole array. -/
theorem flushed_root (c : Dev nD) (t : Fin cfg1.N) :
    (dat1 (F := Ideal) V c).flushed 4 t
      = ((cfg1.win 4).blk t).view.read (Elt Ideal)
          (Cert.PDN.rootK (N := 100000) (V c main_arg0) (V c main_v17) (V c main_v18)) := by
  show (cfg1.win 4).cut (grid1.coords t) ((dat1 V c).after 4 t) = _
  rw [after1_4]
  unfold out1_4
  rw [View.canon_unit_zero hz]
  simp only [View.ld_unit_zero (S := S2000x512) hz, View.ld_unit_zero (S := S512x512) hz, View.ld_unit_zero (S := S1x256) hz]
  funext j
  obtain ⟨p, q, rfl⟩ : ∃ (p : Fin 2000) (q : Fin 256), j = ix2 p q := ⟨j 0, j 1, eq_ix2 j⟩
  obtain ⟨-, -, -, -, -, -, -, -, e0, e1⟩ := idx_facts t
  show k1_pay3 (F := Ideal) (iblk1 V c 0 t) (iblk1 V c 1 t) (iblk1 V c 2 t) (ix2 p q)
      = Cert.PDN.rootK (N := 100000) (V c main_arg0) (V c main_v17) (V c main_v18)
          (((cfg1.win 4).blk t).view.emb (ix2 p q))
  refine (root_tile_apply (iblk1 V c 0 t) (iblk1 V c 1 t) (iblk1 V c 2 t) p q).trans ?_
  rw [wt_blk_eq V c t, bias_blk_eq V c t]
  unfold Cert.PDN.rootK Cert.PDN.rootAt
  refine congrArg₂ (· + ·) (Finset.sum_congr rfl fun k _ => congrArg₂ (· * ·) ?_ ?_) ?_
  · refine feat_blk_apply V c t (ix2 p k) _ ?_ rfl
    show win1_4.index t 0 * 2000 + 1 * p.val = 2000 * t.val + p.val
    rw [e0]; omega
  · refine congrArg (V c main_v17) (congrArg (ix2 k) (Fin.ext ?_))
    show 256 + q.val = 256 + (win1_4.index t 1 * 256 + 1 * q.val)
    rw [e1]; omega
  · refine congrArg (V c main_v18) (congrArg (ix2 (0 : Fin 1)) (Fin.ext ?_))
    show q.val = win1_4.index t 1 * 256 + 1 * q.val
    rw [e1]; omega

end Tiles

/-! ## The tiles fill the arrays -/

/-- An index of the message table is in point `t`'s tile iff each coordinate is in the tile's range on its axis. -/
theorem mem_blk_node (t : Fin cfg1.N) (i : S100000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v19_0).slice (win1_3.rect t)).set ↔ _
  rw [View.set_slice_whole, Rect.mem_set_unit]
  exact Iff.rfl

/-- The same for the root array. -/
theorem mem_blk_root (t : Fin cfg1.N) (i : S100000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v19_1).slice (win1_4.rect t)).set ↔ _
  rw [View.set_slice_whole, Rect.mem_set_unit]
  exact Iff.rfl

/-- Row `r` of the message table is in the tile of point `r / 2000`: fifty tiles of 2000 rows are the 100000 rows. -/
theorem cover_node (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, e0, e1, -⟩ := idx_facts t
  refine ⟨t, flush1_3 t, ?_⟩
  rw [mem_blk_node]
  intro a
  match a with
  | ⟨0, _⟩ =>
    show win1_3.index t 0 * 2000 ≤ (i 0).val ∧ (i 0).val < win1_3.index t 0 * 2000 + 2000
    rw [e0, ht]; omega
  | ⟨1, _⟩ =>
    show win1_3.index t 1 * 256 ≤ (i 1).val ∧ (i 1).val < win1_3.index t 1 * 256 + 256
    rw [e1]; omega

/-- The same for the root array. -/
theorem cover_root (i : S100000x256.Idx) :
    ∃ t : Fin cfg1.N, (cfg1.win 4).flush t = true ∧ i ∈ ((cfg1.win 4).blk t).view.set := by
  have hi0 : (i 0).val < 100000 := (i 0).isLt
  have hi1 : (i 1).val < 256 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, -, -, e0, e1⟩ := idx_facts t
  refine ⟨t, flush1_4 t, ?_⟩
  rw [mem_blk_root]
  intro a
  match a with
  | ⟨0, _⟩ =>
    show win1_4.index t 0 * 2000 ≤ (i 0).val ∧ (i 0).val < win1_4.index t 0 * 2000 + 2000
    rw [e0, ht]; omega
  | ⟨1, _⟩ =>
    show win1_4.index t 1 * 256 ≤ (i 1).val ∧ (i 1).val < win1_4.index t 1 * 256 + 256
    rw [e1]; omega

/-! ## The two arrays after the region -/

/-- After the node projection's region the message table is, entry by entry, the node features times the first half of
    the stacked transposed weights. -/
theorem arr_node (V : (c : Dev nD) → (b : Ref sig .tc) → Buf (Elt Ideal) ((c : Thread nD τ).loc b)) (c : Dev nD) :
    (dat1 (F := Ideal) V c).arrAt 3 cfg1.N = Cert.PDN.nodeK (N := 100000) (V c main_arg0) (V c main_v17) := by
  exact (dat1 (F := Ideal) V c).arrAt_eq_of_cover 3 (Cert.PDN.nodeK (N := 100000) (V c main_arg0) (V c main_v17))
    (fun t _ => flushed_node V c t) cover_node

/-- … and the root array the features times the second half, plus the one-row bias. -/
theorem arr_root (V : (c : Dev nD) → (b : Ref sig .tc) → Buf (Elt Ideal) ((c : Thread nD τ).loc b)) (c : Dev nD) :
    (dat1 (F := Ideal) V c).arrAt 4 cfg1.N
      = Cert.PDN.rootK (N := 100000) (V c main_arg0) (V c main_v17) (V c main_v18) := by
  exact (dat1 (F := Ideal) V c).arrAt_eq_of_cover 4
    (Cert.PDN.rootK (N := 100000) (V c main_arg0) (V c main_v17) (V c main_v18))
    (fun t _ => flushed_root V c t) cover_root

end Cert.KernelIdeal.Region1

end
-- ==== Proof.LibPadStack.lean ====
/-
  General readings of two host layout operations at an index given by its coordinates, any element type, any sizes.

  A `stablehlo.pad` that appends entries at the HIGH end only (low padding 0, no interior padding), of a rank-2 or a rank-1
  array: inside the operand's extents it reads the operand at the same coordinates (`pad2_inside`, `pad1_inside`); at a row
  or a column (or, in rank 1, a position) at or past the operand's extent it reads the padding value (`pad2_outside_row`,
  `pad2_outside_col`, `pad1_outside`).
  A `stablehlo.concatenate` of two pieces along axis 0 — two row blocks [A₁, B] over [A₂, B], or two vectors [A₁], [A₂]:
  below the first piece's extent it reads the first piece (`concat2_rows_left`, `concat1_left`), from there on the second
  piece with the coordinate counted from the first piece's extent (`concat2_rows_right`, `concat1_right`).
-/
import Idealize.ShloMosaic.Lib.ValueIdx
import Idealize.ShloMosaic.Lib.Pipeline.Value
import Idealize.ShloMosaic.Lib.KernelVsHost

namespace Cert.LibPadStack

open Idealize.ShloMosaic Idealize.ShloMosaic.ValueIdx

section Readings
variable {α : Type}

/-- A rank-2 array padded at the high ends only reads the operand at every index inside the operand's extents. -/
theorem pad2_inside {A B A' B' : ℕ} (hi : Fin 2 → ℕ) (x : (⟨2, ![A, B]⟩ : Shape).Idx → α) {u : Shape} (v : u.Idx → α)
    (h : (⟨2, ![A, B]⟩ : Shape).Pads (![0, 0] : Fin 2 → ℕ) hi ![0, 0] ⟨2, ![A', B']⟩) (hu : 0 < u.numel)
    (r : Fin A') (k : Fin B') (hr : r.val < A) (hk : k.val < B) :
    pad ⟨2, ![A', B']⟩ (![0, 0] : Fin 2 → ℕ) hi ![0, 0] x v h hu (ix2 r k) = x (ix2 ⟨r.val, hr⟩ ⟨k.val, hk⟩) :=
  pad_apply_of_inside _ _ _ x v h hu (ix2 r k) (ix2 ⟨r.val, hr⟩ ⟨k.val, hk⟩) fun a => by
    match a with
    | ⟨0, _⟩ => show r.val = 0 + r.val * (0 + 1); omega
    | ⟨1, _⟩ => show k.val = 0 + k.val * (0 + 1); omega

/-- … and the padding value at every index whose row is past the operand's rows … -/
theorem pad2_outside_row {A B A' B' : ℕ} (hi : Fin 2 → ℕ) (x : (⟨2, ![A, B]⟩ : Shape).Idx → α) {u : Shape} (v : u.Idx → α)
    (h : (⟨2, ![A, B]⟩ : Shape).Pads (![0, 0] : Fin 2 → ℕ) hi ![0, 0] ⟨2, ![A', B']⟩) (hu : 0 < u.numel)
    (r : Fin A') (k : Fin B') (hr : A ≤ r.val) :
    pad ⟨2, ![A', B']⟩ (![0, 0] : Fin 2 → ℕ) hi ![0, 0] x v h hu (ix2 r k) = v (Shape.Idx.first hu) :=
  pad_apply_of_not_inside _ _ _ x v h hu (ix2 r k) ⟨0, Nat.zero_lt_two⟩ (by
    show ¬(0 ≤ r.val ∧ (r.val - 0) % (0 + 1) = 0 ∧ (r.val - 0) / (0 + 1) < A)
    omega)

/-- … or whose column is past the operand's columns. -/
theorem pad2_outside_col {A B A' B' : ℕ} (hi : Fin 2 → ℕ) (x : (⟨2, ![A, B]⟩ : Shape).Idx → α) {u : Shape} (v : u.Idx → α)
    (h : (⟨2, ![A, B]⟩ : Shape).Pads (![0, 0] : Fin 2 → ℕ) hi ![0, 0] ⟨2, ![A', B']⟩) (hu : 0 < u.numel)
    (r : Fin A') (k : Fin B') (hk : B ≤ k.val) :
    pad ⟨2, ![A', B']⟩ (![0, 0] : Fin 2 → ℕ) hi ![0, 0] x v h hu (ix2 r k) = v (Shape.Idx.first hu) :=
  pad_apply_of_not_inside _ _ _ x v h hu (ix2 r k) ⟨1, Nat.one_lt_two⟩ (by
    show ¬(0 ≤ k.val ∧ (k.val - 0) % (0 + 1) = 0 ∧ (k.val - 0) / (0 + 1) < B)
    omega)

/-- A rank-1 array padded at the high end only reads the operand below the operand's extent … -/
theorem pad1_inside {A A' : ℕ} (hi : Fin 1 → ℕ) (x : (⟨1, ![A]⟩ : Shape).Idx → α) {u : Shape} (v : u.Idx → α)
    (h : (⟨1, ![A]⟩ : Shape).Pads (![0] : Fin 1 → ℕ) hi ![0] ⟨1, ![A']⟩) (hu : 0 < u.numel)
    (o : Fin A') (ho : o.val < A) :
    pad ⟨1, ![A']⟩ (![0] : Fin 1 → ℕ) hi ![0] x v h hu (ix1 o) = x (ix1 ⟨o.val, ho⟩) :=
  pad_apply_of_inside _ _ _ x v h hu (ix1 o) (ix1 ⟨o.val, ho⟩) fun a => by
    match a with
    | ⟨0, _⟩ => show o.val = 0 + o.val * (0 + 1); omega

/-- … and the padding value from there on. -/
theorem pad1_outside {A A' : ℕ} (hi : Fin 1 → ℕ) (x : (⟨1, ![A]⟩ : Shape).Idx → α) {u : Shape} (v : u.Idx → α)
    (h : (⟨1, ![A]⟩ : Shape).Pads (![0] : Fin 1 → ℕ) hi ![0] ⟨1, ![A']⟩) (hu : 0 < u.numel)
    (o : Fin A') (ho : A ≤ o.val) :
    pad ⟨1, ![A']⟩ (![0] : Fin 1 → ℕ) hi ![0] x v h hu (ix1 o) = v (Shape.Idx.first hu) :=
  pad_apply_of_not_inside _ _ _ x v h hu (ix1 o) ⟨0, Nat.one_pos⟩ (by
    show ¬(0 ≤ o.val ∧ (o.val - 0) % (0 + 1) = 0 ∧ (o.val - 0) / (0 + 1) < A)
    omega)

/-- Two rank-2 arrays stacked along the rows read the first at a row below its extent … -/
theorem concat2_rows_left {A₁ A₂ A B : ℕ} (x₁ : (⟨2, ![A₁, B]⟩ : Shape).Idx → α) (x₂ : (⟨2, ![A₂, B]⟩ : Shape).Idx → α)
    (h : Shape.Concatenates [(⟨2, ![A₁, B]⟩ : Shape), ⟨2, ![A₂, B]⟩] ⟨2, ![A, B]⟩ ⟨0, Nat.zero_lt_two⟩)
    (o : Fin A) (k : Fin B) (ho : o.val < A₁) :
    concatenate ⟨2, ![A, B]⟩ ⟨0, Nat.zero_lt_two⟩ [⟨⟨2, ![A₁, B]⟩, x₁⟩, ⟨⟨2, ![A₂, B]⟩, x₂⟩] h (ix2 o k) = x₁ (ix2 ⟨o.val, ho⟩ k) :=
  concatenate_pair_apply_left _ x₁ x₂ h (ix2 o k) rfl (ix2 ⟨o.val, ho⟩ k) fun b => by
    match b with
    | ⟨0, _⟩ => rfl
    | ⟨1, _⟩ => rfl

/-- … and the second, its row counted from the first's extent, at a row from there on. -/
theorem concat2_rows_right {A₁ A₂ A B : ℕ} (x₁ : (⟨2, ![A₁, B]⟩ : Shape).Idx → α) (x₂ : (⟨2, ![A₂, B]⟩ : Shape).Idx → α)
    (h : Shape.Concatenates [(⟨2, ![A₁, B]⟩ : Shape), ⟨2, ![A₂, B]⟩] ⟨2, ![A, B]⟩ ⟨0, Nat.zero_lt_two⟩)
    (o : Fin A) (k : Fin B) (ho : A₁ ≤ o.val) (ho' : o.val - A₁ < A₂) :
    concatenate ⟨2, ![A, B]⟩ ⟨0, Nat.zero_lt_two⟩ [⟨⟨2, ![A₁, B]⟩, x₁⟩, ⟨⟨2, ![A₂, B]⟩, x₂⟩] h (ix2 o k) = x₂ (ix2 ⟨o.val - A₁, ho'⟩ k) :=
  concatenate_pair_apply_right _ x₁ x₂ h (ix2 o k) rfl rfl (ix2 ⟨o.val - A₁, ho'⟩ k)
    (fun b hb => by
      match b, hb with
      | ⟨0, _⟩, hb => exact absurd rfl hb
      | ⟨1, _⟩, _ => rfl)
    (by show (o.val - A₁) + A₁ = o.val; omega)

/-- Two vectors joined read the first below its extent … -/
theorem concat1_left {A₁ A₂ A : ℕ} (x₁ : (⟨1, ![A₁]⟩ : Shape).Idx → α) (x₂ : (⟨1, ![A₂]⟩ : Shape).Idx → α)
    (h : Shape.Concatenates [(⟨1, ![A₁]⟩ : Shape), ⟨1, ![A₂]⟩] ⟨1, ![A]⟩ ⟨0, Nat.one_pos⟩)
    (o : Fin A) (ho : o.val < A₁) :
    concatenate ⟨1, ![A]⟩ ⟨0, Nat.one_pos⟩ [⟨⟨1, ![A₁]⟩, x₁⟩, ⟨⟨1, ![A₂]⟩, x₂⟩] h (ix1 o) = x₁ (ix1 ⟨o.val, ho⟩) :=
  concatenate_pair_apply_left _ x₁ x₂ h (ix1 o) rfl (ix1 ⟨o.val, ho⟩) fun b => by
    match b with
    | ⟨0, _⟩ => rfl

/-- … and the second, counted from the first's extent, from there on. -/
theorem concat1_right {A₁ A₂ A : ℕ} (x₁ : (⟨1, ![A₁]⟩ : Shape).Idx → α) (x₂ : (⟨1, ![A₂]⟩ : Shape).Idx → α)
    (h : Shape.Concatenates [(⟨1, ![A₁]⟩ : Shape), ⟨1, ![A₂]⟩] ⟨1, ![A]⟩ ⟨0, Nat.one_pos⟩)
    (o : Fin A) (ho : A₁ ≤ o.val) (ho' : o.val - A₁ < A₂) :
    concatenate ⟨1, ![A]⟩ ⟨0, Nat.one_pos⟩ [⟨⟨1, ![A₁]⟩, x₁⟩, ⟨⟨1, ![A₂]⟩, x₂⟩] h (ix1 o) = x₂ (ix1 ⟨o.val - A₁, ho'⟩) :=
  concatenate_pair_apply_right _ x₁ x₂ h (ix1 o) rfl rfl (ix1 ⟨o.val - A₁, ho'⟩)
    (fun b hb => by
      match b, hb with
      | ⟨0, _⟩, hb => exact absurd rfl hb)
    (by show (o.val - A₁) + A₁ = o.val; omega)

end Readings

end Cert.LibPadStack
-- ==== Proof.RefBridge.lean ====
/-
  The reference's gate, message table and root term are the specification's functions of the same arrays.
-/
import proofs.«113082_j64707977282150_1_alg».proof.Proof.Gen.ReferenceIdeal.Read
import proofs.«113082_j64707977282150_1_alg».proof.Proof.Spec
import proofs.«113082_j64707977282150_1_alg».proof.Proof.LibPadStack
import Idealize.ShloMosaic.Lib.ValueLayout

noncomputable section

open scoped BigOperators

namespace Cert.ReferenceIdeal.Bridge

open Cert.ReferenceIdeal Idealize.ShloMosaic Idealize.ShloMosaic.ValueIdx

/-- Entry `(j, k)` of the transpose of a matrix is entry `(k, j)` of the matrix. -/
private theorem transpose2_apply {α : Type} {A B : ℕ} (x : (⟨2, ![A, B]⟩ : Shape).Idx → α)
    (h : (⟨2, ![A, B]⟩ : Shape).Transposes [1, 0] ⟨2, ![B, A]⟩) (j : Fin B) (k : Fin A) :
    transpose ⟨2, ![B, A]⟩ [1, 0] x h (ix2 j k) = x (ix2 k j) :=
  transpose_apply [1, 0] x h (ix2 j k) (ix2 k j) fun b => by
    match b with
    | ⟨0, _⟩ => rfl
    | ⟨1, _⟩ => rfl

/-- The leading rows of a matrix, cut out from offset `(0, 0)`, read the matrix at the same coordinates. -/
private theorem slice2_rows_apply {α : Type} {A A' B : ℕ} (x : (⟨2, ![A', B]⟩ : Shape).Idx → α)
    (h : (⟨2, ![A', B]⟩ : Shape).Slices ![0, 0] ⟨2, ![A, B]⟩) (r : Fin A) (c : Fin B) (hr : r.val < A') :
    extractStridedSlice ⟨2, ![A, B]⟩ ![0, 0] x h (ix2 r c) = x (ix2 ⟨r.val, hr⟩ c) :=
  extractStridedSlice_apply ![0, 0] x h (ix2 r c) (ix2 ⟨r.val, hr⟩ c) fun a => by
    match a with
    | ⟨0, _⟩ => show r.val = 0 + r.val; omega
    | ⟨1, _⟩ => show c.val = 0 + c.val; omega

/-- The single-precision word `0x3F800000` is the number one. -/
private theorem one_bits : Ideal.ofBits .f32 0x3F800000#32 = 1 := by
  simp [Ideal.ofBits, Ideal.ieee, -EReal.coe_mul]; norm_num

/-- The gate array of the padded, tiled computation, cut back to the 900000 real rows, is the reference's gate. -/
theorem gate_eq (x2 : (⟨2, ![800000, 128]⟩ : Shape).Idx → EReal) (x4 : (⟨2, ![256, 128]⟩ : Shape).Idx → EReal)
    (x5 : (⟨1, ![256]⟩ : Shape).Idx → EReal) (x6 : (⟨2, ![256, 256]⟩ : Shape).Idx → EReal)
    (x7 : (⟨1, ![256]⟩ : Shape).Idx → EReal) (pv : (⟨0, ![]⟩ : Shape).Idx → EReal)
    (hpad : (⟨2, ![900000, 128]⟩ : Shape).Pads (![0, 0] : Fin 2 → Nat) ![1120, 0] ![0, 0] ⟨2, ![901120, 128]⟩)
    (hu : 0 < (⟨0, ![]⟩ : Shape).numel)
    (ht4 : (⟨2, ![256, 128]⟩ : Shape).Transposes [1, 0] ⟨2, ![128, 256]⟩)
    (ht6 : (⟨2, ![256, 256]⟩ : Shape).Transposes [1, 0] ⟨2, ![256, 256]⟩)
    (hsc : (⟨1, ![256]⟩ : Shape).ShapeCasts ⟨2, ![1, 256]⟩)
    (hsl : (⟨2, ![901120, 256]⟩ : Shape).Slices ![0, 0] ⟨2, ![900000, 256]⟩) :
    extractStridedSlice ⟨2, ![900000, 256]⟩ ![0, 0]
        (Cert.PDN.gateK (E := 901120)
          (pad ⟨2, ![901120, 128]⟩ (![0, 0] : Fin 2 → Nat) ![1120, 0] ![0, 0] (Read.val_main_v8 (F := Ideal) x2) pv hpad hu)
          (transpose ⟨2, ![128, 256]⟩ [1, 0] x4 ht4) (shapeCast ⟨2, ![1, 256]⟩ x5 hsc)
          (transpose ⟨2, ![256, 256]⟩ [1, 0] x6 ht6) (shapeCast ⟨2, ![1, 256]⟩ x7 hsc)) hsl
      = Read.val_main_v27 (F := Ideal) x2 x4 x5 x6 x7 := by
  funext i
  obtain ⟨r, c, rfl⟩ : ∃ (r : Fin 900000) (c : Fin 256), i = ix2 r c := ⟨i 0, i 1, eq_ix2 i⟩
  have hr : r.val < 901120 := by have := r.isLt; omega
  rw [slice2_rows_apply _ hsl r c hr, Cert.PDN.gateK_ix2]
  -- the reference's gate at (r, c), one operation at a time, down to its operands' entries
  simp only [Read.val_main_v27_apply, Read.val_main_v26_apply, Read.val_main_cst_1_apply, Read.val_main_v25_apply,
    Read.val_main_v24_apply, Read.val_main_cst_0_apply, Read.val_main_v23_apply, Read.val_main_v22_apply,
    Read.val_main_v21_apply, Read.val_main_v18_apply, Read.val_main_v20_apply, Read.val_main_v19_apply,
    Read.val_main_v17_apply, Read.val_main_v16_apply, Read.val_main_call0_v0_apply, Read.val_main_call0_cst_apply,
    Read.val_main_v15_apply, Read.val_main_v14_apply, Read.val_main_v13_apply, Read.val_main_v12_apply,
    Read.val_main_v11_apply]
  -- over the extended reals: 1 / (1 + exp (-z)) is the logistic function of z
  simp only [Ideal.hostDivf_def, Ideal.addf_def, Ideal.hostUnary_exp_def, Ideal.hostNegf_def, Ideal.negf_def,
    Ideal.maximumf_def, Ideal.ofBits_def, one_bits]
  unfold Cert.PDN.gateAt Ideal.logistic
  refine congrArg (fun z => Ideal.div 1 (1 + Ideal.exp (-z))) ?_
  -- second layer: bias entry c, then the sum over the hidden units term by term
  have hb7 : Read.idx_main_v19 (Read.idx_main_v20 (ix2 r c)) = ix1 c :=
    funext fun a => Fin.ext (by match a with | ⟨0, _⟩ => rfl)
  rw [hb7, shapeCast_a_1a_apply]
  refine congrArg (· + x7 (ix1 c)) (Finset.sum_congr rfl fun k _ => ?_)
  have h6 : Read.idx_main_v17 (Read.ridx_main_v18 (ix2 r c) k) = ix2 c k :=
    funext fun a => Fin.ext (by match a with | ⟨0, _⟩ => rfl | ⟨1, _⟩ => rfl)
  rw [h6, transpose2_apply]
  refine congrArg (· * x6 (ix2 c k)) ?_
  -- first layer: bias entry k, then the sum over the 128 attributes term by term
  unfold Cert.PDN.hidden
  have hb5 : Read.idx_main_v13 (Read.idx_main_v14 (Read.lidx_main_v18 (ix2 r c) k)) = ix1 k :=
    funext fun a => Fin.ext (by match a with | ⟨0, _⟩ => rfl)
  rw [hb5, shapeCast_a_1a_apply]
  refine congrArg (fun z => max (z + x5 (ix1 k)) (Ideal.ofBits .f32 0x00000000#32)) (Finset.sum_congr rfl fun j _ => ?_)
  have h8 : Read.lidx_main_v12 (Read.lidx_main_v18 (ix2 r c) k) j = ix2 r j :=
    funext fun a => Fin.ext (by match a with | ⟨0, _⟩ => rfl | ⟨1, _⟩ => rfl)
  have h4 : Read.idx_main_v11 (Read.ridx_main_v12 (Read.lidx_main_v18 (ix2 r c) k) j) = ix2 k j :=
    funext fun a => Fin.ext (by match a with | ⟨0, _⟩ => rfl | ⟨1, _⟩ => rfl)
  rw [h8, h4, transpose2_apply]
  -- row r < 900000 of the padded array is row r of the array itself
  exact congrArg (· * x4 (ix2 k j)) (LibPadStack.pad2_inside _ _ pv hpad hu ⟨r.val, hr⟩ j r.isLt j.isLt)

/-- The first half of the fused projection is the reference's message table. -/
theorem node_eq (x0 : (⟨2, ![100000, 512]⟩ : Shape).Idx → EReal) (x3 x8 : (⟨2, ![256, 512]⟩ : Shape).Idx → EReal)
    (hc : Shape.Concatenates [(⟨2, ![256, 512]⟩ : Shape), ⟨2, ![256, 512]⟩] ⟨2, ![512, 512]⟩ 0)
    (ht : (⟨2, ![512, 512]⟩ : Shape).Transposes [1, 0] ⟨2, ![512, 512]⟩) :
    Cert.PDN.nodeK (N := 100000) x0
        (transpose ⟨2, ![512, 512]⟩ [1, 0]
          (concatenate ⟨2, ![512, 512]⟩ 0 [⟨⟨2, ![256, 512]⟩, x3⟩, ⟨⟨2, ![256, 512]⟩, x8⟩] hc) ht)
      = Read.val_main_v10 (F := Ideal) x0 x3 := by
  funext i
  obtain ⟨r, c, rfl⟩ : ∃ (r : Fin 100000) (c : Fin 256), i = ix2 r c := ⟨i 0, i 1, eq_ix2 i⟩
  rw [Cert.PDN.nodeK_ix2, Read.val_main_v10_apply]
  unfold Cert.PDN.nodeAt
  refine Finset.sum_congr rfl fun k _ => ?_
  have hl : Read.lidx_main_v10 (ix2 r c) k = ix2 r k :=
    funext fun a => Fin.ext (by match a with | ⟨0, _⟩ => rfl | ⟨1, _⟩ => rfl)
  have hx : Read.idx_main_v9 (Read.ridx_main_v10 (ix2 r c) k) = ix2 c k :=
    funext fun a => Fin.ext (by match a with | ⟨0, _⟩ => rfl | ⟨1, _⟩ => rfl)
  rw [Read.val_main_v9_apply, hl, hx, transpose2_apply]
  exact congrArg (x0 (ix2 r k) * ·) (LibPadStack.concat2_rows_left x3 x8 hc _ k c.isLt)

/-- The second half, with the one-row bias, is the reference's root product plus its broadcast bias, entry by entry. -/
theorem root_eq (x0 : (⟨2, ![100000, 512]⟩ : Shape).Idx → EReal) (x3 x8 : (⟨2, ![256, 512]⟩ : Shape).Idx → EReal)
    (x9 : (⟨1, ![256]⟩ : Shape).Idx → EReal)
    (hc : Shape.Concatenates [(⟨2, ![256, 512]⟩ : Shape), ⟨2, ![256, 512]⟩] ⟨2, ![512, 512]⟩ 0)
    (ht : (⟨2, ![512, 512]⟩ : Shape).Transposes [1, 0] ⟨2, ![512, 512]⟩)
    (hsc : (⟨1, ![256]⟩ : Shape).ShapeCasts ⟨2, ![1, 256]⟩) (i : (⟨2, ![100000, 256]⟩ : Shape).Idx) :
    Cert.PDN.rootK (N := 100000) x0
        (transpose ⟨2, ![512, 512]⟩ [1, 0]
          (concatenate ⟨2, ![512, 512]⟩ 0 [⟨⟨2, ![256, 512]⟩, x3⟩, ⟨⟨2, ![256, 512]⟩, x8⟩] hc) ht)
        (shapeCast ⟨2, ![1, 256]⟩ x9 hsc) i
      = Read.val_main_v48 (F := Ideal) x0 x8 i + Read.val_main_v51 (F := Ideal) x9 i := by
  obtain ⟨r, c, rfl⟩ : ∃ (r : Fin 100000) (c : Fin 256), i = ix2 r c := ⟨i 0, i 1, eq_ix2 i⟩
  rw [Cert.PDN.rootK_ix2, Read.val_main_v48_apply, Read.val_main_v51_apply, Read.val_main_v50_apply]
  unfold Cert.PDN.rootAt
  have hb : Read.idx_main_v50 (Read.idx_main_v51 (ix2 r c)) = ix1 c :=
    funext fun a => Fin.ext (by match a with | ⟨0, _⟩ => rfl)
  rw [hb, shapeCast_a_1a_apply]
  refine congrArg (· + x9 (ix1 c)) (Finset.sum_congr rfl fun k _ => ?_)
  have hl : Read.lidx_main_v48 (ix2 r c) k = ix2 r k :=
    funext fun a => Fin.ext (by match a with | ⟨0, _⟩ => rfl | ⟨1, _⟩ => rfl)
  have hx : Read.idx_main_v47 (Read.ridx_main_v48 (ix2 r c) k) = ix2 c k :=
    funext fun a => Fin.ext (by match a with | ⟨0, _⟩ => rfl | ⟨1, _⟩ => rfl)
  rw [Read.val_main_v47_apply, hl, hx, transpose2_apply]
  refine congrArg (x0 (ix2 r k) * ·) ((LibPadStack.concat2_rows_right x3 x8 hc _ k (by show 256 ≤ 256 + c.val; omega) (by show 256 + c.val - 256 < 256; have := c.isLt; omega)).trans ?_)
  exact congrArg x8 (funext fun a => Fin.ext (by match a with | ⟨0, _⟩ => (show 256 + c.val - 256 = c.val; omega) | ⟨1, _⟩ => rfl))

end Cert.ReferenceIdeal.Bridge

end
-- ==== Proof.Value.lean ====
/-
  The tiled program's result, as a function of the launch arrays, is the reference's.

  The result is the shared normalised sum of the message table, the gates and the endpoint lists, plus the root array.
  The message table and the root array are the two halves of the fused projection, the gates what the edge network's
  region leaves, cut back to the real rows; each is the specification's function of the region's operands, the operands
  are an operation or two of the launch arrays, and those functions are the reference's own stages. What remains is
  that the reference adds the root product and the root bias one after the other where the tiled program adds their sum:
  addition of extended reals is associative.
-/
import proofs.«113082_j64707977282150_1_alg».proof.Proof.HostK
import proofs.«113082_j64707977282150_1_alg».proof.Proof.Region0
import proofs.«113082_j64707977282150_1_alg».proof.Proof.Region1
import proofs.«113082_j64707977282150_1_alg».proof.Proof.RefBridge

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result buffer after the last stretch holds the reference's result function of the launch arrays. -/
theorem result_value (c : Dev nD) :
    @Eq ((⟨S100000x256, .f32⟩ : BufTy).Contents (Elt Ideal)) (W6 m ρ c (Proc.devRef .tc main_v39))
      (Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  obtain ⟨pv, hea⟩ := HostK.attrs_eq m ρ c
  rw [HostK.result_eq m ρ c, HostK.table_eq m ρ c, HostK.gates_eq m ρ c, HostK.rows_eq m ρ c, HostK.cols_eq m ρ c,
    HostK.root_eq m ρ c, Region1.arr_node, Region1.arr_root, Region0.arr, HostK.x_eq m ρ c, HostK.wt_eq m ρ c,
    HostK.broot_eq m ρ c, hea, HostK.w1_eq m ρ c, HostK.b1_eq m ρ c, HostK.w2_eq m ρ c, HostK.b2_eq m ρ c]
  rw [Cert.ReferenceIdeal.Bridge.node_eq, Cert.ReferenceIdeal.Bridge.gate_eq]
  unfold Cert.ReferenceIdeal.Read.val_main_v52 Cert.ReferenceIdeal.Read.val_main_v49
  rw [Cert.ReferenceIdeal.Tail.ref_aggregate]
  funext i
  rw [Idealize.ShloMosaic.ValueIdx.addf_apply, Idealize.ShloMosaic.ValueIdx.addf_apply, Idealize.ShloMosaic.ValueIdx.addf_apply,
    Cert.ReferenceIdeal.Bridge.root_eq, add_assoc]

end Cert.KernelIdeal.Result

end
-- ==== Proof.lean ====
/-
  A gated message-passing layer on a graph of 100000 nodes and 800000 edges, a self loop added at every node: each
  edge's message is its source node's projected feature row times a gate computed from the edge's attributes by a
  two-layer perceptron (affine, positive part, affine, logistic); a node sums the messages that arrive, divides by
  their number (at least one) and adds a second projection of its own features plus a bias.

  The tiled program computes the gates in 220 tiles of 4096 attribute rows (the 900000 rows padded to 901120, the extra
  rows cut off afterwards) and the two projections as ONE product with the two weight matrices stacked, in 50 tiles of
  2000 nodes, adding the bias to the second half inside the tile; the reference computes each whole. Read over the
  extended reals, where rounding to a shorter format is the identity and a matrix product is a plain finite sum,
  every entry of the gate array, of the message table and of the root array is the same sum on both sides, and the
  gather, multiply, segment-sum and divide that follow are the same operations applied to equal arrays. The only
  rearrangement is at the end: the tiled program adds (root product + bias) to the normalised sum, the reference adds the
  root product and then the bias — associativity of addition, which holds on the extended reals without any finiteness
  assumption, so the precondition is never opened.

  The three frames are the generated frame runs (the reference's is its generated run with the result dropped); the
  idealization rewrote nothing, so `preserves` is trivial.
-/
import proofs.«113082_j64707977282150_1_alg».proof.Defs
import proofs.«113082_j64707977282150_1_alg».proof.Proof.Gen.Kernel
import proofs.«113082_j64707977282150_1_alg».proof.Proof.Gen.Kernel.Skeleton
import proofs.«113082_j64707977282150_1_alg».proof.Proof.Gen.Kernel.Launch
import proofs.«113082_j64707977282150_1_alg».proof.Proof.Gen.Kernel.Points
import proofs.«113082_j64707977282150_1_alg».proof.Proof.Gen.Kernel.Frame
import proofs.«113082_j64707977282150_1_alg».proof.Proof.Gen.KernelIdeal
import proofs.«113082_j64707977282150_1_alg».proof.Proof.Gen.KernelIdeal.Skeleton
import proofs.«113082_j64707977282150_1_alg».proof.Proof.Gen.KernelIdeal.Launch
import proofs.«113082_j64707977282150_1_alg».proof.Proof.Gen.KernelIdeal.Points
import proofs.«113082_j64707977282150_1_alg».proof.Proof.Gen.KernelIdeal.Frame
import proofs.«113082_j64707977282150_1_alg».proof.Proof.Gen.ReferenceIdeal
import proofs.«113082_j64707977282150_1_alg».proof.Proof.Gen.Pre_finite_inputs
import proofs.«113082_j64707977282150_1_alg».proof.Proof.Gen.ReferenceIdeal.Run
import proofs.«113082_j64707977282150_1_alg».proof.Proof.Gen.ReferenceIdeal.Read
import proofs.«113082_j64707977282150_1_alg».proof.Proof.KRun
import proofs.«113082_j64707977282150_1_alg».proof.Proof.Value
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the program over the extended reals rewrote no operation. -/
theorem preserves : Cert.preserves_Kernel_KernelIdeal := trivial

/-- From memories that agree on the arguments both programs end with the same result array: the reference's result
    function of the launch arrays. -/
theorem algebraic : Cert.algebraic_KernelIdeal_ReferenceIdeal := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result_value m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
